-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S1024x1024 : Shape := ⟨2, ![1024, 1024]⟩
abbrev S1024 : Shape := ⟨1, ![1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  reducesTo_S32768x1024_S1024_d0 : S32768x1024.ReducesTo [0] S1024
  reducesTo_S1024x1024_S1024_d0 : S1024x1024.ReducesTo [0] S1024

variable [Facts]

def fn_part1 {F : FTy → Type} [FloatOps F] (main_arg1 : FVec F S1024x1024 .f32) (main_v13 : IVec S_ 1) (main_v14 : FVec F S1024 .f32) (main_v15 : FVec F S1024 .f32) : IVec S_ 1 :=
  let main_v16 : IVec S1024 1 := cmpf .ogt main_v14 main_v15
  let main_c_6 : IVec S_ 1 := constantI S_ 1 1#1
  let main_v17 : IVec S_ 1 := (fun x v => Host.reduce IntOp.andi x v reducesTo_S1024_S_d0 h_S_) main_v16 main_c_6
  let main_v18 : IVec S_ 1 := andi main_v13 main_v17
  let main_cst_7 : FVec F S_ .f32 := constant S_ .f32 0xFF800000#32
  let main_v19 : FVec F S1024 .f32 := (fun x v => Host.reduce FloatOps.maximumf x v reducesTo_S1024x1024_S1024_d0 h_S_) main_arg1 main_cst_7
  let main_cst_8 : FVec F S_ .f32 := constant S_ .f32 0x00000000#32
  let main_v20 : FVec F S1024 .f32 := broadcastInDim S1024 ![] bcast_S_S1024 main_cst_8
  let main_v21 : IVec S1024 1 := cmpf .ogt main_v19 main_v20
  let main_c_9 : IVec S_ 1 := constantI S_ 1 1#1
  let main_v22 : IVec S_ 1 := (fun x v => Host.reduce IntOp.andi x v reducesTo_S1024_S_d0 h_S_) main_v21 main_c_9
  let main_v23 : IVec S_ 1 := andi main_v18 main_v22
  main_v23

def fn {F : FTy → Type} [FloatOps F] (main_arg0 : FVec F S32768x1024 .f32) (main_arg1 : FVec F S1024x1024 .f32) (main_arg2 : FVec F S1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_cst_4 : FVec F S_ .f32 := constant S_ .f32 0xFF800000#32
  let main_v14 : FVec F S1024 .f32 := (fun x v => Host.reduce FloatOps.maximumf x v reducesTo_S32768x1024_S1024_d0 h_S_) main_arg0 main_cst_4
  let main_cst_5 : FVec F S_ .f32 := constant S_ .f32 0x00000000#32
  let main_v15 : FVec F S1024 .f32 := broadcastInDim S1024 ![] bcast_S_S1024 main_cst_5
  fn_part1 (F := F) main_arg1 main_v13 main_v14 main_v15
-- ==== Kernel.lean ====
abbrev S32768x1024 : Shape := ⟨2, ![32768, 1024]⟩
abbrev S1024x1024 : Shape := ⟨2, ![1024, 1024]⟩
abbrev S1024 : Shape := ⟨1, ![1024]⟩
abbrev S16x1024 : Shape := ⟨2, ![16, 1024]⟩
abbrev S2048x1024 : Shape := ⟨2, ![2048, 1024]⟩
abbrev S8x1024 : Shape := ⟨2, ![8, 1024]⟩
abbrev S1x1024 : Shape := ⟨2, ![1, 1024]⟩
abbrev S_ : Shape := ⟨0, ![]⟩

abbrev nBuf : Space → Nat
  | .hbm => 23
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1024, .f32⟩
  | .hbm, ⟨3, _⟩ => ⟨S16x1024, .f32⟩
  | .hbm, ⟨4, _⟩ => ⟨S_, .f32⟩
  | .hbm, ⟨5, _⟩ => ⟨S1024, .f32⟩
  | .hbm, ⟨6, _⟩ => ⟨S_, .f32⟩
  | .hbm, ⟨7, _⟩ => ⟨S1024, .f32⟩
  | .hbm, ⟨8, _⟩ => ⟨S1024, .f32⟩
  | .hbm, ⟨9, _⟩ => ⟨S_, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1024x1024, .bf16⟩
  | .hbm, ⟨22, _⟩ => ⟨S32768x1024, .f32⟩
  | .local _ .vmem, ⟨0, _⟩ => ⟨S2048x1024, .f32⟩
  | .local _ .vmem, ⟨1, _⟩ => ⟨S2048x1024, .f32⟩
  | .local _ .vmem, ⟨2, _⟩ => ⟨S8x1024, .f32⟩
  | .local _ .vmem, ⟨3, _⟩ => ⟨S8x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S8x1024_S8x1024_0_0 : ∀ a, (![0, 0] : Fin 2 → Nat) a + S8x1024.size a ≤ S8x1024.size a
  h_S8x1024 : 0 < S8x1024.numel
  inb_S2048x1024_S2048x1024_0_0 : ∀ a, (![0, 0] : Fin 2 → Nat) a + S2048x1024.size a ≤ S2048x1024.size a
  h_S2048x1024 : 0 < S2048x1024.numel
  reduces_S2048x1024_S1024 : S2048x1024.Reduces [0] S1024
  shapeCasts_S1024_S1x1024 : S1024.ShapeCasts S1x1024
  shapeCasts_S1x1024_S1x1024 : S1x1024.ShapeCasts S1x1024
  broadcasts_S1x1024_S8x1024 : S1x1024.Broadcasts S8x1024
  shapeCasts_S8x1024_S8x1024 : S8x1024.ShapeCasts S8x1024
  reducesTo_S16x1024_S1024_d0 : S16x1024.ReducesTo [0] S1024
  h_S_ : 0 < S_.numel
  bcast_S_S1024 : S_.BroadcastsInDim S1024 (![] : Fin 0 → Fin S1024.rank)
  reducesTo_S1024x1024_S1024_d0 : S1024x1024.ReducesTo [0] S1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  broadcasts_S1x1024_S1024x1024 : S1x1024.Broadcasts S1024x1024
  shapeCasts_S1024x1024_S1024x1024 : S1024x1024.ShapeCasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S32768x1024.size a
  hwx0_0 : ∀ i : grid0.Coords, EltTy.bits .f32 = 32 ∨ (Rect.block (s := S32768x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1024.size a ≤ S16x1024.size a
  hwx0_1 : ∀ i : grid0.Coords, EltTy.bits .f32 = 32 ∨ (Rect.block (s := S16x1024) S8x1024.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S32768x1024.size a
  hwx1_0 : ∀ i : grid1.Coords, EltTy.bits .f32 = 32 ∨ (Rect.block (s := S32768x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S32768x1024.size a
  hwx1_5 : ∀ i : grid1.Coords, EltTy.bits .f32 = 32 ∨ (Rect.block (s := S32768x1024) S1024x1024.size (cc1_transform_5 i) (hinb1_5 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S1024x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S32768x1024 : Shape := ⟨2, ![32768, 1024]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩
abbrev S1024x1 : Shape := ⟨2, ![1024, 1]⟩

abbrev nBuf : Space → Nat
  | .hbm => 25
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1024, .f32⟩
  | .hbm, ⟨3, _⟩ => ⟨S_, .f32⟩
  | .hbm, ⟨4, _⟩ => ⟨S1024, .f32⟩
  | .hbm, ⟨5, _⟩ => ⟨S_, .f32⟩
  | .hbm, ⟨6, _⟩ => ⟨S1024, .f32⟩
  | .hbm, ⟨7, _⟩ => ⟨S1024, .f32⟩
  | .hbm, ⟨8, _⟩ => ⟨S_, .f32⟩
  | .hbm, ⟨9, _⟩ => ⟨S1024, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1x1024, .f32⟩
  | .hbm, ⟨15, _⟩ => ⟨S32768x1024, .f32⟩
  | .hbm, ⟨16, _⟩ => ⟨S32768x1024, .f32⟩
  | .hbm, ⟨17, _⟩ => ⟨S1024x1, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S32768x1024, .f32⟩
  | .hbm, ⟨22, _⟩ => ⟨S1x1024, .f32⟩
  | .hbm, ⟨23, _⟩ => ⟨S32768x1024, .f32⟩
  | .hbm, ⟨24, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S32768x1024_S1024_d0 : S32768x1024.ReducesTo [0] S1024
  h_S_ : 0 < S_.numel
  bcast_S_S1024 : S_.BroadcastsInDim S1024 (![] : Fin 0 → Fin S1024.rank)
  reducesTo_S1024x1024_S1024_d0 : S1024x1024.ReducesTo [0] S1024
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  transposes_S1024x1024_S1024x1024_1_0 : S1024x1024.Transposes [1, 0] S1024x1024
  dot_S32768x1024_S1024x1024_S32768x1024_1_0_0_1_n_n_wf : DotDims.WF S32768x1024 S1024x1024 S32768x1024 [1] [0] [0] [1] [] []

variable [Facts₀]

def dot_S32768x1024_S1024x1024_S32768x1024_1_0_0_1_n_n : DotDims S32768x1024 S1024x1024 S32768x1024 where
  lhsContracting := [1]
  rhsContracting := [0]
  lhsNonContracting := [0]
  rhsNonContracting := [1]
  lhsBatch := []
  rhsBatch := []
  wf := dot_S32768x1024_S1024x1024_S32768x1024_1_0_0_1_n_n_wf

class Facts : Prop extends Facts₀ where

variable [Facts]
-- ==== Proof.Spec.lean ====
/-
  The mathematics of the smoothing rescale, stated once, free of either program.

  For activations `x : [N, D]`, a square weight `w : [D, D]` and a bias `b : [D]` over the extended reals:
  the column maximum of an array, the per-channel scale `s d = (max_n x n d)^(1/2) / (max_o w o d)^(1/2)`,
  and the two spellings of the rescaled linear map at an entry `(n, o)`:

    * the product spelling  `s o * (∑ d, (x n d * (1 / s d)) * w o d) + b o`  (rescale after the contraction),
    * the quotient spelling `(∑ d, (x n d / s d) * (s o * w o d)) + b o`     (rescale the weight's rows first).

  The scale is a parameter of both entries, so that each side of the certificate can be brought to its spelling
  before anything is known about the scale; that the two agree when every scale is a positive real and every
  input entry is real is the algebraic law of the certificate (proved elsewhere).
-/
import Idealize.ShloMosaic.PureOps.Ideal
import Idealize.ShloMosaic.Lib.ValueIdx

noncomputable section

namespace Cert.Smooth

open Idealize.ShloMosaic Idealize.ShloMosaic.ValueIdx

/-- The maximum of column `d` of an `[R, C]` array of extended reals (the supremum over its `R` rows; `⊥` when `R = 0`). -/
def colMax {R C : ℕ} (X : (⟨2, ![R, C]⟩ : Shape).Idx → EReal) (d : Fin C) : EReal :=
  Finset.univ.sup fun n : Fin R => X (ix2 n d)

/-- The exponent the programs raise the maxima to: the word of `0.5`. -/
abbrev half : EReal := Ideal.ofBits .f32 0x3F000000#32

/-- The numerator of the reciprocal scale: the word of `1.0`. -/
abbrev one : EReal := Ideal.ofBits .f32 0x3F800000#32

/-- The per-channel scale: the square root of the activations' column maximum over that of the weight's. -/
def scale (x : (⟨2, ![32768, 1024]⟩ : Shape).Idx → EReal) (w : (⟨2, ![1024, 1024]⟩ : Shape).Idx → EReal) (d : Fin 1024) : EReal :=
  Ideal.div (Ideal.pow (colMax x d) half) (Ideal.pow (colMax w d) half)

/-- The product spelling at entry `(n, o)`: the contraction of the rescaled activations with the weight, then the scale. -/
def prodEntry (s : Fin 1024 → EReal) (x : (⟨2, ![32768, 1024]⟩ : Shape).Idx → EReal) (w : (⟨2, ![1024, 1024]⟩ : Shape).Idx → EReal)
    (b : (⟨1, ![1024]⟩ : Shape).Idx → EReal) (n : Fin 32768) (o : Fin 1024) : EReal :=
  s o * (∑ d : Fin 1024, (x (ix2 n d) * Ideal.div one (s d)) * w (ix2 o d)) + b (ix1 o)

/-- The quotient spelling at entry `(n, o)`: the activations divided by the scale against the weight's rescaled rows. -/
def quotEntry (s : Fin 1024 → EReal) (x : (⟨2, ![32768, 1024]⟩ : Shape).Idx → EReal) (w : (⟨2, ![1024, 1024]⟩ : Shape).Idx → EReal)
    (b : (⟨1, ![1024]⟩ : Shape).Idx → EReal) (n : Fin 32768) (o : Fin 1024) : EReal :=
  (∑ d : Fin 1024, Ideal.div (x (ix2 n d)) (s d) * (s o * w (ix2 o d))) + b (ix1 o)

end Cert.Smooth

end
-- ==== Proof.Law.lean ====
/-
  The algebraic law of the smoothing rescale: when every input entry is real and every column maximum of the
  activations and of the weight is positive, the product spelling and the quotient spelling of an entry agree.

  The argument. A supremum of finitely many reals is below `⊤`; one that is above `0` is not `⊥` either, so it is a
  positive real. A positive real raised to a real power is a positive real, so the scale `s d` — a quotient of two
  such powers — is a positive real `σ d`. With the scale and every entry real, both spellings are coercions of real
  expressions: `σ o * ∑ d, x d * (1 / σ d) * w d + b` and `∑ d, x d * (1 / σ d) * (σ o * w d) + b`, equal by
  distributing the factor over the sum.
-/
import proofs.«147346_j15522011807856_2_alg».proof.Proof.Spec
import Mathlib.Tactic

noncomputable section

namespace Cert.Smooth

open Idealize.ShloMosaic Idealize.ShloMosaic.ValueIdx

/-- The word of `1.0` denotes the real `1`. -/
theorem one_eq : one = 1 := by
  simp [one, Ideal.ofBits, Ideal.ieee, -EReal.coe_mul]; norm_num

/-- The word of `0.5` denotes a real. -/
theorem half_real : ∃ h : ℝ, half = (h : EReal) := by
  refine ⟨(1 / 2 : ℝ), ?_⟩
  simp [half, Ideal.ofBits, Ideal.ieee, -EReal.coe_mul]; norm_num

/-- The coercion of a finite sum of reals is the sum of the coercions. -/
theorem coe_sum {ι : Type} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- A column maximum of real entries that is positive is a positive real. -/
theorem colMax_pos_real {R C : ℕ} (X : (⟨2, ![R, C]⟩ : Shape).Idx → EReal)
    (hX : ∀ i, ∃ r : ℝ, X i = (r : EReal)) (d : Fin C) (hp : 0 < colMax X d) :
    ∃ r : ℝ, 0 < r ∧ colMax X d = (r : EReal) := by
  have htop : colMax X d ≠ ⊤ := by
    refine ne_of_lt ?_
    rw [colMax, Finset.sup_lt_iff bot_lt_top]
    intro n _
    obtain ⟨r, hr⟩ := hX (ix2 n d)
    rw [hr]; exact EReal.coe_lt_top r
  have hbot : colMax X d ≠ ⊥ := ne_of_gt (lt_trans EReal.bot_lt_zero hp)
  refine ⟨(colMax X d).toReal, ?_, (EReal.coe_toReal htop hbot).symm⟩
  have h := hp
  rw [← EReal.coe_toReal htop hbot] at h
  exact_mod_cast h

/-- The quotient of the square-root-like powers of two positive reals is a positive real. -/
theorem div_pow_pos_real {a c h : ℝ} (ha : 0 < a) (hc : 0 < c) :
    ∃ σ : ℝ, 0 < σ ∧ Ideal.div (Ideal.pow (a : EReal) (h : EReal)) (Ideal.pow (c : EReal) (h : EReal)) = (σ : EReal) := by
  have hap : 0 < Real.rpow a h := Real.rpow_pos_of_pos ha h
  have hcp : 0 < Real.rpow c h := Real.rpow_pos_of_pos hc h
  refine ⟨Real.rpow a h * (1 / Real.rpow c h), mul_pos hap (one_div_pos.mpr hcp), ?_⟩
  rw [Ideal.pow_coe_coe, Ideal.pow_coe_coe, Ideal.div_coe (ne_of_gt hcp), EReal.coe_mul]

/-- Under the hypotheses of the law every scale is a positive real. -/
theorem scale_pos_real (x : (⟨2, ![32768, 1024]⟩ : Shape).Idx → EReal) (w : (⟨2, ![1024, 1024]⟩ : Shape).Idx → EReal)
    (hx : ∀ i, ∃ r : ℝ, x i = (r : EReal)) (hw : ∀ i, ∃ r : ℝ, w i = (r : EReal))
    (hpx : ∀ d : Fin 1024, 0 < colMax x d) (hpw : ∀ d : Fin 1024, 0 < colMax w d) (d : Fin 1024) :
    ∃ σ : ℝ, 0 < σ ∧ scale x w d = (σ : EReal) := by
  obtain ⟨a, ha, hae⟩ := colMax_pos_real x hx d (hpx d)
  obtain ⟨c, hc, hce⟩ := colMax_pos_real w hw d (hpw d)
  obtain ⟨h, hh⟩ := half_real
  rw [scale, hae, hce, hh]
  exact div_pow_pos_real ha hc

/-- Division of a real by a positive real is the real product with the reciprocal. -/
theorem div_coe_pos (a : ℝ) {σ : ℝ} (hσ : 0 < σ) : Ideal.div (a : EReal) (σ : EReal) = ((a * (1 / σ) : ℝ) : EReal) := by
  rw [Ideal.div_coe (ne_of_gt hσ), EReal.coe_mul]

/-- The two spellings agree once the scale is a positive real at every channel and every entry is real. -/
theorem entry_eq_of_real (σ : Fin 1024 → ℝ) (hσ : ∀ d, 0 < σ d) (xr wr : Fin 1024 → ℝ) (br : ℝ) (o : Fin 1024) :
    (σ o : EReal) * (∑ d : Fin 1024, ((xr d : EReal) * Ideal.div one (σ d : EReal)) * (wr d : EReal)) + (br : EReal)
      = (∑ d : Fin 1024, Ideal.div (xr d : EReal) (σ d : EReal) * ((σ o : EReal) * (wr d : EReal))) + (br : EReal) := by
  have hL : ∀ d : Fin 1024, ((xr d : EReal) * Ideal.div one (σ d : EReal)) * (wr d : EReal)
      = ((xr d * (1 / σ d) * wr d : ℝ) : EReal) := by
    intro d
    rw [one_eq, ← EReal.coe_one, div_coe_pos 1 (hσ d), one_mul, EReal.coe_mul, EReal.coe_mul]
  have hR : ∀ d : Fin 1024, Ideal.div (xr d : EReal) (σ d : EReal) * ((σ o : EReal) * (wr d : EReal))
      = ((xr d * (1 / σ d) * (σ o * wr d) : ℝ) : EReal) := by
    intro d
    rw [div_coe_pos (xr d) (hσ d)]
    simp only [EReal.coe_mul]
  rw [Finset.sum_congr rfl (fun d _ => hL d), Finset.sum_congr rfl (fun d _ => hR d), ← coe_sum, ← coe_sum,
    ← EReal.coe_mul, Finset.mul_sum]
  congr 2
  refine Finset.sum_congr rfl fun d _ => ?_
  ring

/-- The algebraic law: under finite inputs and positive column maxima the product spelling of an entry (rescale after the
    contraction) equals its quotient spelling (rescale the weight's rows first). -/
theorem entry_eq (x : (⟨2, ![32768, 1024]⟩ : Shape).Idx → EReal) (w : (⟨2, ![1024, 1024]⟩ : Shape).Idx → EReal)
    (b : (⟨1, ![1024]⟩ : Shape).Idx → EReal)
    (hx : ∀ i, ∃ r : ℝ, x i = (r : EReal)) (hw : ∀ i, ∃ r : ℝ, w i = (r : EReal)) (hb : ∀ i, ∃ r : ℝ, b i = (r : EReal))
    (hpx : ∀ d : Fin 1024, 0 < colMax x d) (hpw : ∀ d : Fin 1024, 0 < colMax w d) (n : Fin 32768) (o : Fin 1024) :
    prodEntry (scale x w) x w b n o = quotEntry (scale x w) x w b n o := by
  choose σ hσ hσe using scale_pos_real x w hx hw hpx hpw
  choose xr hxr using hx
  choose wr hwr using hw
  obtain ⟨br, hbr⟩ := hb (ix1 o)
  have h := entry_eq_of_real σ hσ (fun d => xr (ix2 n d)) (fun d => wr (ix2 o d)) br o
  simp only [prodEntry, quotEntry, hσe, hxr, hwr, hbr]
  exact h

end Cert.Smooth

end
-- ==== Proof.LibColMax.lean ====
/-
  A column maximum on the host, read at an index.

  The host's maximum-reduce of an `[R, C]` array of extended reals over its rows, started from `-∞`, holds at
  column `d` the supremum over the `R` rows of the array's entries in that column — for any sizes. (The reduce
  is a fold of `max` over the row coordinate; a fold of `max` from the bottom element is the finite supremum.)
-/
import Idealize.ShloMosaic.PureOps.Reduce
import Idealize.ShloMosaic.PureOps.Ideal.Laws
import Idealize.ShloMosaic.Lib.ValueIdx
import proofs.«147346_j15522011807856_2_alg».proof.Proof.Spec

noncomputable section

namespace Cert.LibColMax

open Idealize.ShloMosaic Idealize.ShloMosaic.ValueIdx

/-- A fold of `max` from `⊥` over a finite set is the set's supremum. -/
theorem fold_max_bot {ι : Type} (S : Finset ι) (f : ι → EReal) : S.fold max ⊥ f = S.sup f := by
  classical
  induction S using Finset.induction_on with
  | empty => simp
  | insert a S ha ih => rw [Finset.fold_insert ha, Finset.sup_insert, ih]

/-- The host's maximum over the rows of an `[R, C]` array, from an initial value `-∞`, at column `j`:
    the supremum of the column. -/
theorem reduce_max_rows {R C : ℕ} (X : (⟨2, ![R, C]⟩ : Shape).Idx → EReal) (init : (⟨0, ![]⟩ : Shape).Idx → EReal)
    (hinit : init ValueIdx.ix0 = ⊥)
    (h : (⟨2, ![R, C]⟩ : Shape).ReducesTo [0] ⟨1, ![C]⟩) (hu : 0 < (⟨0, ![]⟩ : Shape).numel) (j : (⟨1, ![C]⟩ : Shape).Idx) :
    Host.reduce (FloatOps.maximumf (F := Ideal) (φ := .f32)) X init h hu j = Cert.Smooth.colMax X (j 0) := by
  have hr : (⟨2, ![R, C]⟩ : Shape).Reduces [0] ⟨1, ![C]⟩ := ⟨h.1, Nat.one_pos, h.2⟩
  rw [Host.reduce_eq_fold_single _ X init h hr hu j]
  have e0 : init (Shape.Idx.first hu) = ⊥ := by
    rw [← hinit]; exact congrArg init (funext fun a => a.elim0)
  rw [e0]
  have el : ∀ n : Fin R, hr.lift j n = ix2 n (j 0) := fun n => funext fun c => Fin.ext (by
    match c with
    | ⟨0, _⟩ => rfl
    | ⟨1, _⟩ => rfl)
  show Finset.fold max ⊥ (fun n : Fin R => X (hr.lift j n)) Finset.univ = _
  rw [fold_max_bot]
  unfold Cert.Smooth.colMax
  exact Finset.sup_congr rfl fun n _ => congrArg X (el n)

end Cert.LibColMax

end
-- ==== Proof.PreDecode.lean ====
/-
  The precondition, decoded.

  The precondition is a conjunction of five "for all" statements, each printed as a reduction by `and` of an array of
  one-bit comparisons: `|x| < +∞`, `|w| < +∞`, `|b| < +∞` at every entry, and `max over the rows > 0` at every column of
  `x` and of `w`. If the conjunction is `1`, each reduction is `1`, so each compared element is `1`.

    * `|a| < +∞` on the extended reals: the word `0x7F800000` denotes `⊤`, and `max a (-a) < ⊤` excludes `a = ⊤` and
      `a = ⊥`, so `a` is a real.
    * `m > 0`: the word `0` denotes `0`, and the comparison is the order's; the compared `m` is the host's maximum over the
      rows from `-∞` (the word `0xFF800000` denotes `⊥`), which is the column's supremum.
-/
import proofs.«147346_j15522011807856_2_alg».proof.Proof.Spec
import proofs.«147346_j15522011807856_2_alg».proof.Proof.LibColMax
import proofs.«147346_j15522011807856_2_alg».proof.Proof.Gen.Pre_finite_inputs
import Idealize.ShloMosaic.Lib.ReduceAll

noncomputable section

namespace Cert.Smooth

open Idealize.ShloMosaic Idealize.ShloMosaic.ValueIdx

variable [Cert.Pre_finite_inputs.Facts]

/-- A bit made from a Boolean is `1` exactly when the Boolean is true. -/
theorem ofBool_eq_one {c : Bool} : BitVec.ofBool c = 1#1 ↔ c = true := by cases c <;> decide

/-- The word of `+∞` denotes `⊤`; the word of `-∞` denotes `⊥`. -/
theorem ofBits_pinf : Ideal.ofBits .f32 0x7F800000#32 = ⊤ := by simp [Ideal.ofBits, Ideal.ieee]
theorem ofBits_ninf : Ideal.ofBits .f32 0xFF800000#32 = ⊥ := by simp [Ideal.ofBits, Ideal.ieee]

/-- An extended real whose absolute value compares below `+∞` is a real. -/
theorem real_of_abs_lt (a : EReal)
    (h : FloatOps.cmpf (F := Ideal) (φ := .f32) .olt (FloatOps.hostAbsf (F := Ideal) (φ := .f32) a) (Ideal.ofBits .f32 0x7F800000#32) = 1#1) :
    ∃ r : ℝ, a = (r : EReal) := by
  rw [ofBits_pinf] at h
  change BitVec.ofBool (decide (max a (-a) < ⊤)) = 1#1 at h
  rw [ofBool_eq_one, decide_eq_true_eq] at h
  induction a using EReal.rec with
  | bot => simp at h
  | top => simp at h
  | coe r => exact ⟨r, rfl⟩

/-- An extended real that compares above the word of zero is positive. -/
theorem pos_of_gt_zero (a : EReal)
    (h : FloatOps.cmpf (F := Ideal) (φ := .f32) .ogt a (Ideal.ofBits .f32 0x00000000#32) = 1#1) : 0 < a := by
  rw [Ideal.ofBits_zero_f32] at h
  change BitVec.ofBool (decide (0 < a)) = 1#1 at h
  rwa [ofBool_eq_one, decide_eq_true_eq] at h

/-- The same for arrays read at an index: where `R > Z` holds and `Z` is zero, `R` is positive. -/
theorem pos_of_cmpf_gt {s : Shape} (R Z : s.Idx → EReal) (j : s.Idx) (hZ : Z j = 0)
    (h : cmpf (F := Ideal) (φ := .f32) .ogt R Z j = 1#1) : 0 < R j := by
  change BitVec.ofBool (decide (Z j < R j)) = 1#1 at h
  rwa [ofBool_eq_one, decide_eq_true_eq, hZ] at h

/-- The rank-0 shape has one index. -/
instance : Subsingleton Cert.Pre_finite_inputs.S_.Idx := ⟨fun a b => funext fun d => d.elim0⟩

/-- The precondition holding says: every entry of `x`, `w` and `b` is a real, and every column maximum of `x` and of `w`
    is positive. -/
theorem pre_decode (x : Cert.Pre_finite_inputs.S32768x1024.Idx → EReal) (w : Cert.Pre_finite_inputs.S1024x1024.Idx → EReal)
    (b : Cert.Pre_finite_inputs.S1024.Idx → EReal)
    (h : Cert.Pre_finite_inputs.fn (F := Ideal) x w b = fun _ => 1#1) :
    (∀ i, ∃ r : ℝ, x i = (r : EReal)) ∧ (∀ i, ∃ r : ℝ, w i = (r : EReal)) ∧ (∀ i, ∃ r : ℝ, b i = (r : EReal))
      ∧ (∀ d : Fin 1024, 0 < colMax x d) ∧ (∀ d : Fin 1024, 0 < colMax w d) := by
  have h0 := congrFun h ValueIdx.ix0
  dsimp only [Cert.Pre_finite_inputs.fn, Cert.Pre_finite_inputs.fn_part1] at h0
  obtain ⟨h1, hE⟩ := IntOp.andi_eq_one.1 h0
  obtain ⟨h2, hD⟩ := IntOp.andi_eq_one.1 h1
  obtain ⟨h3, hC⟩ := IntOp.andi_eq_one.1 h2
  obtain ⟨hA, hB⟩ := IntOp.andi_eq_one.1 h3
  clear h0 h1 h2 h3 h
  have hxA := Host.reduce_andi_all _ _ _ _ _ hA
  have hxB := Host.reduce_andi_all _ _ _ _ _ hB
  have hxC := Host.reduce_andi_all _ _ _ _ _ hC
  have hxD := Host.reduce_andi_all _ _ _ _ _ hD
  have hxE := Host.reduce_andi_all _ _ _ _ _ hE
  clear hA hB hC hD hE
  refine ⟨fun i => real_of_abs_lt (x i) (hxA i), fun i => real_of_abs_lt (w i) (hxB i),
    fun i => real_of_abs_lt (b i) (hxC i), fun d => ?_, fun d => ?_⟩
  · have hp := pos_of_cmpf_gt _ _ (ix1 d) Ideal.ofBits_zero_f32 (hxD (ix1 d))
    exact lt_of_lt_of_eq hp (Cert.LibColMax.reduce_max_rows x
      (constant (F := Ideal) Cert.Pre_finite_inputs.S_ .f32 0xFF800000#32) ofBits_ninf _ _ (ix1 d))
  · have hp := pos_of_cmpf_gt _ _ (ix1 d) Ideal.ofBits_zero_f32 (hxE (ix1 d))
    exact lt_of_lt_of_eq hp (Cert.LibColMax.reduce_max_rows w
      (constant (F := Ideal) Cert.Pre_finite_inputs.S_ .f32 0xFF800000#32) ofBits_ninf _ _ (ix1 d))

end Cert.Smooth

end
-- ==== Proof.RefRead.lean ====
/-
  The reference's result read at an index.

  The reference forms the per-channel scale `s d = (max_n x n d)^(1/2) / (max_o w o d)^(1/2)` from two column
  maxima, divides every activation by its channel's scale, multiplies every row `o` of the weight by `s o`,
  contracts the two over the channel axis and adds the bias. Read at the entry `(n, o)` this is

      (∑ d, (x n d / s d) * (s o * w o d)) + b o,

  the quotient spelling of the rescaled linear map. The proof reads the operations one at a time, innermost first:
  each column maximum (a fold of `max` from `-∞` down the rows) is the supremum `colMax`; the scale is then
  `scale x w` at every channel; the broadcasts, the transpose and the contraction only move indices, and each
  composed index map is identified with the coordinates it selects.
-/
import proofs.«147346_j15522011807856_2_alg».proof.Proof.Gen.ReferenceIdeal.Read
import proofs.«147346_j15522011807856_2_alg».proof.Proof.Spec
import proofs.«147346_j15522011807856_2_alg».proof.Proof.LibColMax

noncomputable section

namespace Cert.ReferenceIdeal.RefValue

open Cert.ReferenceIdeal Cert.ReferenceIdeal.Gen Idealize.ShloMosaic Idealize.ShloMosaic.ValueIdx Cert.Smooth

/-! ## The column maxima and the scale -/

/-- The value the maximum over the rows of `x` starts from is `-∞`, the bottom of the extended reals. -/
theorem cst_bot : Read.val_main_cst (F := Ideal) ix0 = ⊥ := by
  rw [Read.val_main_cst_apply]
  simp [Ideal.ofBits, Ideal.ieee]

/-- The value the maximum over the rows of `w` starts from is `-∞` as well. -/
theorem cst_1_bot : Read.val_main_cst_1 (F := Ideal) ix0 = ⊥ := by
  rw [Read.val_main_cst_1_apply]
  simp [Ideal.ofBits, Ideal.ieee]

/-- The maximum of `x` over its rows, at channel `i`, is the column maximum. -/
theorem v0_apply (x : (⟨S32768x1024, .f32⟩ : BufTy).Contents (Elt Ideal)) (i : S1024.Idx) :
    Read.val_main_v0 (F := Ideal) x i = colMax x (i 0) := by
  unfold Read.val_main_v0
  exact Cert.LibColMax.reduce_max_rows x _ cst_bot _ _ i

/-- The maximum of `w` over its rows, at channel `i`, is the column maximum. -/
theorem v3_apply (w : (⟨S1024x1024, .f32⟩ : BufTy).Contents (Elt Ideal)) (i : S1024.Idx) :
    Read.val_main_v3 (F := Ideal) w i = colMax w (i 0) := by
  unfold Read.val_main_v3
  exact Cert.LibColMax.reduce_max_rows w _ cst_1_bot _ _ i

/-- The quotient of the two square roots, at channel `d`, is the scale `s d`. -/
theorem v6_apply (x : (⟨S32768x1024, .f32⟩ : BufTy).Contents (Elt Ideal)) (w : (⟨S1024x1024, .f32⟩ : BufTy).Contents (Elt Ideal)) (d : Fin 1024) :
    Read.val_main_v6 (F := Ideal) x w (ix1 d) = scale x w d := by
  rw [Read.val_main_v6_apply, Read.val_main_v2_apply, Read.val_main_v5_apply, v0_apply, v3_apply,
    Read.val_main_v1_apply, Read.val_main_v4_apply, Read.val_main_cst_0_apply, Read.val_main_cst_2_apply]
  rfl

/-! ## The two factors of the contraction -/

/-- The scale broadcast along the rows of the activations: entry `(n, k)` is `s k`. -/
theorem v8_at (x : (⟨S32768x1024, .f32⟩ : BufTy).Contents (Elt Ideal)) (w : (⟨S1024x1024, .f32⟩ : BufTy).Contents (Elt Ideal)) (n : Fin 32768) (k : Fin 1024) :
    Read.val_main_v8 (F := Ideal) x w (ix2 n k) = scale x w k := by
  have e : Read.idx_main_v7 (Read.idx_main_v8 (ix2 n k)) = ix1 k :=
    funext fun a => Fin.ext (by match a with | ⟨0, _⟩ => rfl)
  rw [Read.val_main_v8_apply, Read.val_main_v7_apply, e, v6_apply]

/-- The rescaled activations: entry `(n, k)` is `x n k / s k`. -/
theorem v9_at (x : (⟨S32768x1024, .f32⟩ : BufTy).Contents (Elt Ideal)) (w : (⟨S1024x1024, .f32⟩ : BufTy).Contents (Elt Ideal)) (n : Fin 32768) (k : Fin 1024) :
    Read.val_main_v9 (F := Ideal) x w (ix2 n k) = Ideal.div (x (ix2 n k)) (scale x w k) := by
  rw [Read.val_main_v9_apply, v8_at]
  rfl

/-- The transposed rescaled weight: entry `(k, o)` is `s o * w o k` (row `o` of the weight times its scale, read across). -/
theorem v13_at (x : (⟨S32768x1024, .f32⟩ : BufTy).Contents (Elt Ideal)) (w : (⟨S1024x1024, .f32⟩ : BufTy).Contents (Elt Ideal)) (k o : Fin 1024) :
    Read.val_main_v13 (F := Ideal) x w (ix2 k o) = scale x w o * w (ix2 o k) := by
  have e13 : Read.idx_main_v13 (ix2 k o) = ix2 o k :=
    funext fun a => Fin.ext (by match a with | ⟨0, _⟩ => rfl | ⟨1, _⟩ => rfl)
  have e10 : Read.idx_main_v10 (Read.idx_main_v11 (ix2 o k)) = ix1 o :=
    funext fun a => Fin.ext (by match a with | ⟨0, _⟩ => rfl)
  rw [Read.val_main_v13_apply, e13, Read.val_main_v12_apply, Read.val_main_v11_apply, Read.val_main_v10_apply, e10, v6_apply]
  rfl

/-- The bias broadcast along the rows: entry `(n, o)` is `b o`. -/
theorem v16_at (b : (⟨S1024, .f32⟩ : BufTy).Contents (Elt Ideal)) (n : Fin 32768) (o : Fin 1024) :
    Read.val_main_v16 (F := Ideal) b (ix2 n o) = b (ix1 o) := by
  have e : Read.idx_main_v15 (Read.idx_main_v16 (ix2 n o)) = ix1 o :=
    funext fun a => Fin.ext (by match a with | ⟨0, _⟩ => rfl)
  rw [Read.val_main_v16_apply, Read.val_main_v15_apply, e]

/-! ## The contraction and the result -/

/-- The contraction over the channel axis: entry `(n, o)` is `∑ d, (x n d / s d) * (s o * w o d)`. -/
theorem v14_at (x : (⟨S32768x1024, .f32⟩ : BufTy).Contents (Elt Ideal)) (w : (⟨S1024x1024, .f32⟩ : BufTy).Contents (Elt Ideal)) (n : Fin 32768) (o : Fin 1024) :
    Read.val_main_v14 (F := Ideal) x w (ix2 n o)
      = ∑ d : Fin 1024, Ideal.div (x (ix2 n d)) (scale x w d) * (scale x w o * w (ix2 o d)) := by
  rw [Read.val_main_v14_apply]
  refine Finset.sum_congr rfl fun k _ => ?_
  have el : Read.lidx_main_v14 (ix2 n o) k = ix2 n k :=
    funext fun a => Fin.ext (by match a with | ⟨0, _⟩ => rfl | ⟨1, _⟩ => rfl)
  have er : Read.ridx_main_v14 (ix2 n o) k = ix2 k o :=
    funext fun a => Fin.ext (by match a with | ⟨0, _⟩ => rfl | ⟨1, _⟩ => rfl)
  rw [el, er, v9_at, v13_at]

/-- The reference's result is the quotient spelling of the rescaled linear map, at the scale `scale x w`. -/
theorem ref_value (x : (⟨S32768x1024, .f32⟩ : BufTy).Contents (Elt Ideal)) (w : (⟨S1024x1024, .f32⟩ : BufTy).Contents (Elt Ideal)) (b : (⟨S1024, .f32⟩ : BufTy).Contents (Elt Ideal)) :
    Cert.ReferenceIdeal.Read.val_main_v17 (F := Ideal) x w b = fun j => Cert.Smooth.quotEntry (Cert.Smooth.scale x w) x w b (j 0) (j 1) := by
  funext j
  obtain ⟨n, o, rfl⟩ : ∃ (n : Fin 32768) (o : Fin 1024), j = ix2 n o := ⟨j 0, j 1, eq_ix2 j⟩
  rw [Read.val_main_v17_apply, v14_at, v16_at]
  rfl

end Cert.ReferenceIdeal.RefValue

end
-- ==== Proof.KernelRun.lean ====
/-
  The kernel program's run, with its result named.

  Every weakly fair execution of the program from a launch memory `m` terminates without a fault, the three
  argument arrays end as launched, and the result array `main_v14` ends holding what the second region's
  write-backs leave in it: the contents `W3 m ρ c` of the last boundary of the program (the launch memory carried
  through the first region, the host operations between the regions, and the second region). The statement is
  the frame's with one more buffer read off the final thread state; the proof is the same launch of the segments.
-/
import proofs.«147346_j15522011807856_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the result array at the last boundary's contents, the arguments as launched. -/
theorem run_result : θ_run defs (onTc (τ := τ) (main (F := F))) ⟨m, fun _ => 0, ρ⟩ (fun r => ∀ c : Dev nD,
      r.2.mem ((c.tc : Thread nD τ).loc main_v14) = W3 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v14 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Cert.KernelIdeal.RunValue

end
-- ==== Proof.HostStretch.lean ====
/-
  The host operations between the two kernel regions, read at an index.

  From the slab of partial column maxima the first region leaves (a `[16, 1024]` array `sl`), the weight `w` and the
  bias `b`, the host computes, per channel `d`: the maximum of `sl`'s column `d`, raised to the power one half; the
  same of `w`'s column; their quotient `s d`; and `1 / s d`; and it hands the second region `s`, `1 / s` and `b` as
  `[1, 1024]` rows and `w` itself (a change of float format, the identity on extended reals). The activations are
  not written.

  Everything is stated for buffer contents `W` at the entry of the stretch, whatever they are.
-/
import proofs.«147346_j15522011807856_2_alg».proof.Proof.Gen.KernelIdeal.Frame
import proofs.«147346_j15522011807856_2_alg».proof.Proof.Spec
import proofs.«147346_j15522011807856_2_alg».proof.Proof.LibColMax
import Idealize.ShloMosaic.Lib.StableHlo.Run
import Idealize.ShloMosaic.Lib.Pipeline.Value
import Idealize.ShloMosaic.Lib.ValueIdx
import Idealize.ShloMosaic.PureOps.Ideal

noncomputable section

namespace Cert.KernelIdeal.HostStretch

open Cert.KernelIdeal Cert.KernelIdeal.Gen Cert.Smooth
open Idealize.ShloMosaic Idealize.ShloMosaic.TcCoe Idealize.ShloMosaic.StableHlo Idealize.ShloMosaic.ValueIdx Idealize.SL.Sem

/-- The per-channel scale as the host computes it from the slab and the weight. -/
def hostScale (sl : S16x1024.Idx → EReal) (w : S1024x1024.Idx → EReal) : S1024.Idx → EReal :=
  Host.divf
    (Host.powf (Host.reduce (FloatOps.maximumf (F := Ideal) (φ := .f32)) sl (constant (F := Ideal) S_ .f32 0xFF800000#32) reducesTo_S16x1024_S1024_d0 h_S_)
      (broadcastInDim S1024 ![] bcast_S_S1024 (constant (F := Ideal) S_ .f32 0x3F000000#32)))
    (Host.powf (Host.reduce (FloatOps.maximumf (F := Ideal) (φ := .f32)) w (constant (F := Ideal) S_ .f32 0xFF800000#32) reducesTo_S1024x1024_S1024_d0 h_S_)
      (broadcastInDim S1024 ![] bcast_S_S1024 (constant (F := Ideal) S_ .f32 0x3F000000#32)))

/-- The word of `-∞` is the bottom element. -/
theorem neg_inf_word : (constant (F := Ideal) S_ .f32 0xFF800000#32) ValueIdx.ix0 = (⊥ : EReal) := by
  rw [constant_apply]
  simp [Ideal.ofBits, Ideal.ieee]

/-- The host's quotient, power and a constant spread over the channels, at a channel. -/
theorem hdiv_apply (a c : S1024.Idx → EReal) (i : S1024.Idx) :
    Host.divf (F := Ideal) (φ := .f32) a c i = Ideal.div (a i) (c i) := rfl
theorem hpow_apply (a c : S1024.Idx → EReal) (i : S1024.Idx) :
    Host.powf (F := Ideal) (φ := .f32) a c i = Ideal.pow (a i) (c i) := rfl
theorem spread_apply (wd : BitVec 32) (i : S1024.Idx) :
    broadcastInDim S1024 ![] bcast_S_S1024 (constant (F := Ideal) S_ .f32 wd) i = Ideal.ofBits .f32 wd := rfl

/-- At channel `o` the host's scale is the quotient of the two column maxima's square roots. -/
theorem hostScale_apply (sl : S16x1024.Idx → EReal) (w : S1024x1024.Idx → EReal) (o : Fin 1024) :
    hostScale sl w (ix1 o) = Ideal.div (Ideal.pow (colMax sl o) half) (Ideal.pow (colMax w o) half) := by
  unfold hostScale
  rw [hdiv_apply, hpow_apply, hpow_apply, spread_apply, Cert.LibColMax.reduce_max_rows sl _ neg_inf_word,
    Cert.LibColMax.reduce_max_rows w _ neg_inf_word]

variable (W : Valuation τ sig (Elt Ideal))

/-- A `[1024]` vector reshaped to a `[1, 1024]` row, at `(0, o)`: the vector at `o`. -/
theorem row_of_vec (v : S1024.Idx → EReal) (o : Fin 1024) :
    shapeCast S1x1024 v shapeCasts_S1024_S1x1024 (ix2 (0 : Fin 1) o) = v (ix1 o) :=
  shapeCast_apply v _ (ix2 (0 : Fin 1) o) (ix1 o) (by
    rw [Shape.rowMajor_val_two, Shape.rowMajor_val_one]
    show o.val = (0 : Fin 1).val * 1024 + o.val
    simp)

/-- The scale row the second region reads: `s` at channel `o`. -/
theorem after_scale (o : Fin 1024) :
    StableHlo.after (hostOps1 (F := Ideal)) W (Proc.devRef .tc main_v10) (ix2 (0 : Fin 1) o)
      = hostScale (W (Proc.devRef .tc main_v0)) (W (Proc.devRef .tc main_arg1)) (ix1 o) := by
  have e : StableHlo.after (hostOps1 (F := Ideal)) W (Proc.devRef .tc main_v10)
      = shapeCast S1x1024 (hostScale (W (Proc.devRef .tc main_v0)) (W (Proc.devRef .tc main_arg1))) shapeCasts_S1024_S1x1024 := by
    after_results; rfl
  rw [e]; exact row_of_vec _ o

/-- The reciprocal row the second region reads: `1 / s` at channel `o`. -/
theorem after_recip (o : Fin 1024) :
    StableHlo.after (hostOps1 (F := Ideal)) W (Proc.devRef .tc main_v11) (ix2 (0 : Fin 1) o)
      = Ideal.div one (hostScale (W (Proc.devRef .tc main_v0)) (W (Proc.devRef .tc main_arg1)) (ix1 o)) := by
  have e : StableHlo.after (hostOps1 (F := Ideal)) W (Proc.devRef .tc main_v11)
      = shapeCast S1x1024 (Host.divf (broadcastInDim S1024 ![] bcast_S_S1024 (constant (F := Ideal) S_ .f32 0x3F800000#32))
          (hostScale (W (Proc.devRef .tc main_v0)) (W (Proc.devRef .tc main_arg1)))) shapeCasts_S1024_S1x1024 := by
    after_results; rfl
  rw [e, row_of_vec, hdiv_apply, spread_apply]

/-- The bias row the second region reads: `b` at channel `o`. -/
theorem after_bias (o : Fin 1024) :
    StableHlo.after (hostOps1 (F := Ideal)) W (Proc.devRef .tc main_v12) (ix2 (0 : Fin 1) o)
      = W (Proc.devRef .tc main_arg2) (ix1 o) := by
  have e : StableHlo.after (hostOps1 (F := Ideal)) W (Proc.devRef .tc main_v12)
      = shapeCast S1x1024 (W (Proc.devRef .tc main_arg2)) shapeCasts_S1024_S1x1024 := by
    after_results; rfl
  rw [e]; exact row_of_vec _ o

/-- The weight the second region reads is the weight: a change of float format is the identity. -/
theorem after_weight (i : S1024x1024.Idx) :
    StableHlo.after (hostOps1 (F := Ideal)) W (Proc.devRef .tc main_v13) i = W (Proc.devRef .tc main_arg1) i := by
  after_results
  rfl

end Cert.KernelIdeal.HostStretch

end
-- ==== Proof.FusedBlocks.lean ====
/-
  The value of the fused rescale–contraction–bias region, block by block.

  The region walks the activations `x : [32768, 1024]` in 32 blocks of 1024 rows. At each block it holds the weight
  `w : [1024, 1024]` (whole, entering the contraction by its ROWS: both operands are contracted over their second axis),
  the reciprocal scale `1/s`, the scale `s` and the bias `b` as `[1, 1024]` rows, and stores

      out (p, o) = s o * (∑ d, (x (p, d) * (1/s) d) * w (o, d)) + b o.

  Here: the contraction read at an entry as a plain sum over `d` (`matmul_rows`), the stored value at an entry
  (`pay_apply`), the same against the whole arrays for the block at row offset `1024 T` (`pay_eq_fusedOut`), what each
  point writes back (`point_writes_fused_block`), the tiling of the output by the 32 blocks (`row_blocks_tile`), and the output array after the
  region as ONE function of the arrays the region finds (`fused_final`).
-/
import proofs.«147346_j15522011807856_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Fused

open Cert.KernelIdeal Cert.KernelIdeal.Gen Idealize.ShloMosaic Idealize.ShloMosaic.TcCoe Idealize.SL.Sem
open Idealize.ShloMosaic.ValueIdx
open Idealize.ShloMosaic.Pipeline (Dat)

/-- The left operand of the contraction is read, on its kept axis, at the output's row. -/
theorem lhs_row (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
/-- … and, on its contracted axis, at the summation index. -/
theorem lhs_contr (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
/-- The right operand is read, on its kept axis (its rows), at the output's COLUMN. -/
theorem rhs_row (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
/-- … and, on its contracted axis (its columns), at the summation index. -/
theorem rhs_contr (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The contraction of two square blocks over the second axis of BOTH: entry `(p, o)` is `∑ d, l (p, d) * r (o, d)`
    (the right operand enters by its rows: the product with its transpose). -/
theorem matmul_rows (l r : FVec Ideal S1024x1024 .bf16) (p o : Fin 1024) :
    matmul dot_S1024x1024_S1024x1024_S1024x1024_1_1_0_0_n_n none l r (constant (F := Ideal) S1024x1024 .f32 0x00000000#32) (ix2 p o)
      = ∑ d : Fin 1024, l (ix2 p d) * r (ix2 o d) := by
  simp only [matmul]
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p o) ((contrEquiv1 dot_S1024x1024_S1024x1024_S1024x1024_1_1_0_0_n_n 1024 rfl rfl).symm k) = ix2 p k := funext fun a => Fin.ext (by
    match a with
    | ⟨0, _⟩ => exact lhs_row _ _
    | ⟨1, _⟩ => exact (lhs_contr _ _).trans hk)
  have er : dot_S1024x1024_S1024x1024_S1024x1024_1_1_0_0_n_n.rhsIdx (ix2 p o) ((contrEquiv1 dot_S1024x1024_S1024x1024_S1024x1024_1_1_0_0_n_n 1024 rfl rfl).symm k) = ix2 o k := funext fun a => Fin.ext (by
    match a with
    | ⟨0, _⟩ => exact rhs_row _ _
    | ⟨1, _⟩ => exact (rhs_contr _ _).trans hk)
  rw [el, er]

/-- The body's stored value at entry `(p, o)` of the block: the scale at `o` times the contraction over `d` of the
    rescaled activations with the weight's row `o`, plus the bias at `o` (the change of float format is the identity on
    the extended reals). -/
theorem pay_apply (x0 : Vec Ideal S1024x1024 .f32) (is : Vec Ideal S1x1024 .f32) (wb : Vec Ideal S1024x1024 .bf16)
    (s bb : Vec Ideal S1x1024 .f32) (p o : Fin 1024) :
    k1_pay1 (F := Ideal) x0 is wb s bb (ix2 p o)
      = s (ix2 (0 : Fin 1) o) * (∑ d : Fin 1024, (x0 (ix2 p d) * is (ix2 (0 : Fin 1) d)) * wb (ix2 o d)) + bb (ix2 (0 : Fin 1) o) := by
  unfold k1_pay1
  simp only [shapeCast_self]
  rw [addf_apply, mulf_apply, broadcastTo_1b_ab_apply, broadcastTo_1b_ab_apply, matmul_rows]
  refine congrArg (fun z => s (ix2 (0 : Fin 1) o) * z + bb (ix2 (0 : Fin 1) o)) (Finset.sum_congr rfl fun d _ => ?_)
  rw [truncf_apply, mulf_apply, broadcastTo_1b_ab_apply]

/-! ## From the blocks to the array -/

section Blocks

variable (V : (c : Dev nD) → (b : Ref sig .tc) → Buf (Elt Ideal) ((c : Thread nD τ).loc b))

/-- The offsets of a rectangle that is its whole buffer: zero on both axes. -/
theorem whole_offsets_zero : (![0, 0] : Fin 2 → Nat) = fun _ => 0 := funext fun a => by fin_cases a <;> rfl

/-- The fused map on whole arrays: entry `(n, o)` is the scale at `o` times the contraction over `d` of the rescaled
    activations' row `n` with the weight's row `o`, plus the bias at `o`. -/
def fusedOut (x : S32768x1024.Idx → EReal) (wb : S1024x1024.Idx → EReal) (is s bb : S1x1024.Idx → EReal) : S32768x1024.Idx → EReal :=
  fun j => s (ix2 0 (j 1)) * (∑ d : Fin 1024, (x (ix2 (j 0) d) * is (ix2 0 d)) * wb (ix2 (j 1) d)) + bb (ix2 0 (j 1))

/-- A block of rows `1024 T …` of the activations, with the weight, the reciprocal scale, the scale and the bias whole:
    the body's stored value at `(p, o)` is the fused map at row `1024 T + p`, column `o`. -/
theorem pay_eq_fusedOut (X : S32768x1024.Idx → EReal) (Wb : S1024x1024.Idx → EReal) (Is S B : S1x1024.Idx → EReal)
    (x0 : Vec Ideal S1024x1024 .f32) (wb : Vec Ideal S1024x1024 .bf16) (is s bb : Vec Ideal S1x1024 .f32)
    (T : ℕ) (hT : T < 32)
    (hx : ∀ p d : Fin 1024, x0 (ix2 p d) = X (ix2 (⟨T * 1024 + p.val, by have := p.isLt; omega⟩ : Fin 32768) d))
    (hw : wb = Wb) (his : is = Is) (hs : s = S) (hb : bb = B) (p o : Fin 1024) :
    k1_pay1 (F := Ideal) x0 is wb s bb (ix2 p o)
      = fusedOut X Wb Is S B (ix2 (⟨T * 1024 + p.val, by have := p.isLt; omega⟩ : Fin 32768) o) := by
  rw [pay_apply, hw, his, hs, hb]
  unfold fusedOut
  refine congrArg (fun z => S (ix2 (0 : Fin 1) o) * z + B (ix2 (0 : Fin 1) o)) (Finset.sum_congr rfl fun d _ => ?_)
  rw [hx]

/-- The windows' index maps, decided over the 32 points: the activations' and the output's blocks move down the rows with
    the point; the weight, the reciprocal scale, the scale and the bias are whole at every point. -/
theorem block_positions : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- WHAT POINT `t` WRITES BACK is block `t` of the fused map of the arrays as the region finds them. -/
theorem point_writes_fused_block (c : Dev nD) (t : Fin cfg1.N) :
    (dat1 V c).flushed 5 t = ((cfg1.win 5).blk t).view.read (Elt Ideal)
      (fusedOut (V c main_arg0) (V c main_v13) (V c main_v11) (V c main_v10) (V c main_v12)) := by
  show (cfg1.win 5).cut (grid1.coords t) ((dat1 V c).after 5 t) = _
  rw [after1_5]
  unfold out1_5
  rw [View.canon_unit_zero whole_offsets_zero]
  simp only [View.ld_unit_zero (S := S1024x1024) whole_offsets_zero, View.ld_unit_zero (S := S1x1024) whole_offsets_zero]
  obtain ⟨e00, e01, e10, e11, e20, e21, e30, e31, e40, e41, e50, e51⟩ := block_positions t
  have ht : t.val < 32 := lt_of_lt_of_eq t.isLt N_1
  have hx : ∀ p d : Fin 1024, (iblk1 V c 0 t : Vec Ideal S1024x1024 .f32) (ix2 p d)
      = (V c main_arg0 : S32768x1024.Idx → EReal) (ix2 (⟨t.val * 1024 + p.val, by have := p.isLt; omega⟩ : Fin 32768) d) := by
    intro p d
    show (V c main_arg0 : S32768x1024.Idx → EReal) (((cfg1.win 0).blk t).view.emb (ix2 p d)) = _
    refine congrArg _ (funext fun a => Fin.ext ?_)
    match a with
    | ⟨0, _⟩ => show win1_0.index t (0 : Fin 2) * 1024 + 1 * p.val = t.val * 1024 + p.val; rw [e00]; omega
    | ⟨1, _⟩ => show win1_0.index t (1 : Fin 2) * 1024 + 1 * d.val = d.val; rw [e01]; omega
  have hw : (iblk1 V c 1 t : Vec Ideal S1024x1024 .bf16) = (V c main_v13 : S1024x1024.Idx → EReal) := by
    refine funext fun (y : S1024x1024.Idx) => ?_
    show (V c main_v13 : S1024x1024.Idx → EReal) (((cfg1.win 1).blk t).view.emb y) = (V c main_v13 : S1024x1024.Idx → EReal) y
    refine congrArg _ (funext fun a => Fin.ext ?_)
    match a with
    | ⟨0, _⟩ => show win1_1.index t (0 : Fin 2) * 1024 + 1 * (y 0).val = (y 0).val; rw [e10]; omega
    | ⟨1, _⟩ => show win1_1.index t (1 : Fin 2) * 1024 + 1 * (y 1).val = (y 1).val; rw [e11]; omega
  have his : (iblk1 V c 2 t : Vec Ideal S1x1024 .f32) = (V c main_v11 : S1x1024.Idx → EReal) := by
    refine funext fun (y : S1x1024.Idx) => ?_
    show (V c main_v11 : S1x1024.Idx → EReal) (((cfg1.win 2).blk t).view.emb y) = (V c main_v11 : S1x1024.Idx → EReal) y
    refine congrArg _ (funext fun a => Fin.ext ?_)
    match a with
    | ⟨0, _⟩ => show win1_2.index t (0 : Fin 2) * 1 + 1 * (y 0).val = (y 0).val; rw [e20]; omega
    | ⟨1, _⟩ => show win1_2.index t (1 : Fin 2) * 1024 + 1 * (y 1).val = (y 1).val; rw [e21]; omega
  have hs : (iblk1 V c 3 t : Vec Ideal S1x1024 .f32) = (V c main_v10 : S1x1024.Idx → EReal) := by
    refine funext fun (y : S1x1024.Idx) => ?_
    show (V c main_v10 : S1x1024.Idx → EReal) (((cfg1.win 3).blk t).view.emb y) = (V c main_v10 : S1x1024.Idx → EReal) y
    refine congrArg _ (funext fun a => Fin.ext ?_)
    match a with
    | ⟨0, _⟩ => show win1_3.index t (0 : Fin 2) * 1 + 1 * (y 0).val = (y 0).val; rw [e30]; omega
    | ⟨1, _⟩ => show win1_3.index t (1 : Fin 2) * 1024 + 1 * (y 1).val = (y 1).val; rw [e31]; omega
  have hb : (iblk1 V c 4 t : Vec Ideal S1x1024 .f32) = (V c main_v12 : S1x1024.Idx → EReal) := by
    refine funext fun (y : S1x1024.Idx) => ?_
    show (V c main_v12 : S1x1024.Idx → EReal) (((cfg1.win 4).blk t).view.emb y) = (V c main_v12 : S1x1024.Idx → EReal) y
    refine congrArg _ (funext fun a => Fin.ext ?_)
    match a with
    | ⟨0, _⟩ => show win1_4.index t (0 : Fin 2) * 1 + 1 * (y 0).val = (y 0).val; rw [e40]; omega
    | ⟨1, _⟩ => show win1_4.index t (1 : Fin 2) * 1024 + 1 * (y 1).val = (y 1).val; rw [e41]; omega
  refine funext fun (y : S1024x1024.Idx) => ?_
  obtain ⟨p, o, rfl⟩ : ∃ (p o : Fin 1024), y = ix2 p o := ⟨y 0, y 1, eq_ix2 y⟩
  have hemb : (((cfg1.win 5).blk t).view.emb (ix2 p o) : S32768x1024.Idx)
      = ix2 (⟨t.val * 1024 + p.val, by have := p.isLt; omega⟩ : Fin 32768) o := by
    refine funext fun a => Fin.ext ?_
    match a with
    | ⟨0, _⟩ => show win1_5.index t (0 : Fin 2) * 1024 + 1 * p.val = t.val * 1024 + p.val; rw [e50]; omega
    | ⟨1, _⟩ => show win1_5.index t (1 : Fin 2) * 1024 + 1 * o.val = o.val; rw [e51]; omega
  show k1_pay1 (F := Ideal) (iblk1 V c 0 t) (iblk1 V c 2 t) (iblk1 V c 1 t) (iblk1 V c 3 t) (iblk1 V c 4 t) (ix2 p o)
      = fusedOut (V c main_arg0) (V c main_v13) (V c main_v11) (V c main_v10) (V c main_v12) (((cfg1.win 5).blk t).view.emb (ix2 p o))
  exact (pay_eq_fusedOut (V c main_arg0) (V c main_v13) (V c main_v11) (V c main_v10) (V c main_v12)
      (iblk1 V c 0 t) (iblk1 V c 1 t) (iblk1 V c 2 t) (iblk1 V c 3 t) (iblk1 V c 4 t) t.val ht hx hw his hs hb p o).trans
    (congrArg (fusedOut (V c main_arg0) (V c main_v13) (V c main_v11) (V c main_v10) (V c main_v12)) hemb.symm)

/-- An index of the output array is in point `t`'s block iff each coordinate is in the block's range on its axis. -/
theorem mem_row_block_iff (t : Fin cfg1.N) (i : S32768x1024.Idx) :
    i ∈ ((cfg1.win 5).blk t).view.set ↔ ∀ a : Fin 2, win1_5.index t a * S1024x1024.size a ≤ (i a).val ∧ (i a).val < win1_5.index t a * S1024x1024.size a + S1024x1024.size a := by
  show i ∈ ((View.whole main_v14).slice (win1_5.rect t)).set ↔ _
  rw [View.set_slice_whole, Rect.mem_set_unit]
  exact Iff.rfl

/-- The blocks tile the output: row `r` lies in the block of point `r / 1024`, and every point writes back. -/
theorem row_blocks_tile (i : S32768x1024.Idx) :
    ∃ t : Fin cfg1.N, (cfg1.win 5).flush t = true ∧ i ∈ ((cfg1.win 5).blk t).view.set := by
  have hi0 : (i 0).val < 32768 := (i 0).isLt
  have hi1 : (i 1).val < 1024 := (i 1).isLt
  obtain ⟨t, ht⟩ : ∃ t : Fin cfg1.N, t.val = (i 0).val / 1024 :=
    ⟨⟨(i 0).val / 1024, lt_of_lt_of_eq (by omega : (i 0).val / 1024 < 32) N_1.symm⟩, rfl⟩
  obtain ⟨-, -, -, -, -, -, -, -, -, -, e50, e51⟩ := block_positions t
  refine ⟨t, flush1_5 t, ?_⟩
  rw [mem_row_block_iff]
  intro a
  match a with
  | ⟨0, _⟩ => show win1_5.index t (0 : Fin 2) * 1024 ≤ (i 0).val ∧ (i 0).val < win1_5.index t (0 : Fin 2) * 1024 + 1024; rw [e50, ht]; omega
  | ⟨1, _⟩ => show win1_5.index t (1 : Fin 2) * 1024 ≤ (i 1).val ∧ (i 1).val < win1_5.index t (1 : Fin 2) * 1024 + 1024; rw [e51]; omega

/-- THE OUTPUT ARRAY after the region: the fused map of the arrays as the region finds them, at every index. -/
theorem fused_final (c : Dev nD) :
    (dat1 (F := Ideal) V c).arrAt 5 cfg1.N = fusedOut (V c main_arg0) (V c main_v13) (V c main_v11) (V c main_v10) (V c main_v12) :=
  (dat1 V c).arrAt_eq_of_cover 5 (fusedOut (V c main_arg0) (V c main_v13) (V c main_v11) (V c main_v10) (V c main_v12))
    (fun t _ => point_writes_fused_block V c t) row_blocks_tile

end Blocks

end Cert.KernelIdeal.Fused

end
-- ==== Proof.ColMaxSlabPieces.lean ====
/-
  The mathematics of the column-maximum slab, free of any program.

  For an array `X : [32768, 1024]` of extended reals, `rowsSup X lo hi d` is the supremum of column `d` over the rows
  `lo ≤ n < hi` (`⊥` on an empty range). Two facts carry everything: the supremum over a range split at a middle row is
  the larger of the two parts' suprema (`rowsSup_union`), and a family indexed by `Fin K` that lists the column on `K`
  consecutive rows has that range's supremum (`sup_fin_eq_rowsSup`).

  The slab is the `[16, 1024]` array whose entry `(r, d)` is the supremum of column `d` over the half `r / 8` of the rows
  (rows `16384 (r / 8) … 16384 (r / 8) + 16383`): rows 0–7 all hold the first half's column maxima, rows 8–15 the second
  half's. The maximum over the slab's sixteen rows is then the maximum over all 32768 rows (`colMax_slab`): every row lies
  in one of the two halves, and each slab entry is a supremum of entries of the column.
-/
import proofs.«147346_j15522011807856_2_alg».proof.Proof.Spec
import Idealize.ShloMosaic.Lib.ValueIdx

noncomputable section

namespace Cert.KernelIdeal.Slab

open Idealize.ShloMosaic Idealize.ShloMosaic.ValueIdx

/-- The supremum of column `d` of `X` over the rows `lo ≤ n < hi`. -/
def rowsSup (X : (⟨2, ![32768, 1024]⟩ : Shape).Idx → EReal) (lo hi : ℕ) (d : Fin 1024) : EReal :=
  (Finset.univ.filter fun n : Fin 32768 => lo ≤ n.val ∧ n.val < hi).sup fun n => X (ix2 n d)

/-- Adjacent row ranges: the supremum over their union is the larger of the two suprema. -/
theorem rowsSup_union (X : (⟨2, ![32768, 1024]⟩ : Shape).Idx → EReal) (lo mid hi : ℕ) (h1 : lo ≤ mid) (h2 : mid ≤ hi)
    (d : Fin 1024) : rowsSup X lo hi d = max (rowsSup X lo mid d) (rowsSup X mid hi d) := by
  unfold rowsSup
  rw [← Finset.sup_union]
  refine congrArg (fun s : Finset (Fin 32768) => s.sup fun n => X (ix2 n d)) ?_
  ext n
  simp only [Finset.mem_filter, Finset.mem_union, Finset.mem_univ, true_and]
  omega

/-- A family indexed by `Fin K` that lists column `d` of `X` on the rows `lo, …, lo + K - 1` has that range's supremum. -/
theorem sup_fin_eq_rowsSup (X : (⟨2, ![32768, 1024]⟩ : Shape).Idx → EReal) (K lo : ℕ) (hK : lo + K ≤ 32768)
    (f : Fin K → EReal) (d : Fin 1024)
    (hf : ∀ (y : Fin K) (n : Fin 32768), n.val = lo + y.val → f y = X (ix2 n d)) :
    Finset.univ.sup f = rowsSup X lo (lo + K) d := by
  unfold rowsSup
  apply le_antisymm
  · refine Finset.sup_le fun y _ => ?_
    have hy := y.isLt
    rw [hf y ⟨lo + y.val, by omega⟩ rfl]
    exact Finset.le_sup (f := fun n : Fin 32768 => X (ix2 n d))
      (Finset.mem_filter.mpr ⟨Finset.mem_univ _, by show lo ≤ lo + y.val ∧ lo + y.val < lo + K; omega⟩)
  · refine Finset.sup_le fun n hn => ?_
    obtain ⟨_, hn1, hn2⟩ := Finset.mem_filter.mp hn
    rw [← hf ⟨n.val - lo, by omega⟩ n (by show n.val = lo + (n.val - lo); omega)]
    exact Finset.le_sup (f := f) (Finset.mem_univ _)

/-- The slab of half-maxima: entry `(r, d)` is the supremum of column `d` of `X` over the 16384 rows of the half
    `r / 8` (rows `16384 * (r / 8), …, 16384 * (r / 8) + 16383`); the eight rows of a half are equal. -/
def slab (X : (⟨2, ![32768, 1024]⟩ : Shape).Idx → EReal) : (⟨2, ![16, 1024]⟩ : Shape).Idx → EReal := fun j =>
  Finset.univ.sup fun n : Fin 16384 =>
    X (ix2 (⟨16384 * ((j 0).val / 8) + n.val, by
      have h : (j 0).val < 16 := (j 0).isLt
      have := n.isLt
      omega⟩ : Fin 32768) (j 1))

/-- An entry of the slab as a range supremum, from the entry's coordinates. -/
theorem slab_apply (X : (⟨2, ![32768, 1024]⟩ : Shape).Idx → EReal) (j : (⟨2, ![16, 1024]⟩ : Shape).Idx) (q : ℕ) (d : Fin 1024)
    (hq : (j 0).val / 8 = q) (hd : (j 1).val = d.val) :
    slab X j = rowsSup X (16384 * q) (16384 * q + 16384) d := by
  have h16 : (j 0).val < 16 := (j 0).isLt
  have hd' : (j 1 : Fin 1024) = d := Fin.ext hd
  unfold slab
  refine sup_fin_eq_rowsSup X 16384 (16384 * q) (by omega) _ d fun y n hn => ?_
  refine congrArg X ?_
  rw [hd']
  refine congrArg (fun a : Fin 32768 => ix2 a d) (Fin.ext ?_)
  show 16384 * ((j 0).val / 8) + y.val = n.val
  rw [hn, hq]

/-- The maximum over the slab's sixteen rows is the maximum over all the rows of `X`: every row of `X` lies in one of
    the two halves, and every slab entry is a supremum of entries of `X`. -/
theorem colMax_slab (X : (⟨2, ![32768, 1024]⟩ : Shape).Idx → EReal) (d : Fin 1024) :
    Cert.Smooth.colMax (slab X) d = Cert.Smooth.colMax X d := by
  unfold Cert.Smooth.colMax
  apply le_antisymm
  · refine Finset.sup_le fun r _ => ?_
    rw [slab_apply X (ix2 r d) (r.val / 8) d rfl rfl]
    unfold rowsSup
    refine Finset.sup_le fun n _ => ?_
    exact Finset.le_sup (f := fun n : Fin 32768 => X (ix2 n d)) (Finset.mem_univ n)
  · refine Finset.sup_le fun n _ => ?_
    have hn := n.isLt
    have hr : 8 * (n.val / 16384) < 16 := by omega
    refine le_trans ?_ (Finset.le_sup (f := fun r : Fin 16 => slab X (ix2 r d)) (Finset.mem_univ (⟨8 * (n.val / 16384), hr⟩ : Fin 16)))
    rw [slab_apply X (ix2 (⟨8 * (n.val / 16384), hr⟩ : Fin 16) d) (n.val / 16384) d (by show 8 * (n.val / 16384) / 8 = n.val / 16384; omega) rfl]
    unfold rowsSup
    exact Finset.le_sup (f := fun n : Fin 32768 => X (ix2 n d))
      (Finset.mem_filter.mpr ⟨Finset.mem_univ _, by omega⟩)

-- Both are suprema over index sets of thousands of elements: nothing downstream should ever compute with them, only
-- rewrite with the lemmas above.
attribute [irreducible] slab rowsSup

end Cert.KernelIdeal.Slab

end
-- ==== Proof.ColMaxSlab.lean ====
/-
  The value of the first kernel region: the column-maximum slab.

  The region walks 16 points; point `t` reads the block of rows `2048 t … 2048 t + 2047` of `x : [32768, 1024]` and
  keeps, in an `[8, 1024]` block of the `[16, 1024]` result (block `t / 8`), a running column maximum: at the first
  point of each run of eight the block is reset to `-∞` and then takes `max` with the column maxima of the input block;
  at the other seven points it takes `max` of what the point before left with the input block's column maxima. All
  eight rows of the block hold the same values. The block is written to the result after points 7 and 15.

  So after point `t` the block holds, in every row, the supremum of each column of `x` over the rows
  `16384 (t / 8) ≤ n < 2048 (t + 1)` (`runningMax_apply`, by induction on the point: a reset starts the range at the point's
  own block, a later point extends it by one block — `rowsSup_union`); at the two points that write back the range is a
  whole half of the rows, so the result array is `slab x` (`slab_final`).

  The steps: what each control case leaves in the block is the stored value of its last store (`firstPoint_stores`, `laterPoint_stores`); that
  value at an entry is `max` of the carried entry and a supremum over the input block's rows (`storedMax_apply`: the reduction
  over the row axis is a fold of `max` from `-∞`, which is `Finset.sup`); the input block's entry `(y, d)` is `x` at
  row `2048 t + y` (`inputBlock_apply`).
-/
import proofs.«147346_j15522011807856_2_alg».proof.Proof.Gen.KernelIdeal.Frame
import proofs.«147346_j15522011807856_2_alg».proof.Proof.Spec
import proofs.«147346_j15522011807856_2_alg».proof.Proof.ColMaxSlabPieces
import Idealize.ShloMosaic.Lib.Pipeline.Value
import Idealize.ShloMosaic.Lib.ValueIdx
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.Slab

open Cert.KernelIdeal Cert.KernelIdeal.Gen Idealize.ShloMosaic.ValueIdx

/-! ## What each control case leaves in the output block -/

section Pieces
variable {F : FTy → Type} [FloatOps F]

/-- A rectangle that is a whole buffer starts at offset zero on both axes. -/
theorem zeroOffsets : (![0, 0] : Fin 2 → Nat) = fun _ => 0 := funext fun a => by fin_cases a <;> rfl

/-- A point that is not the first of its run of eight: one store covers the block, and its value is `max` of the block as
    the point before left it (`xo`) with the column maxima of the input block `x`. -/
theorem laterPoint_stores (c : Dev nD) (i : grid0.Coords) (a1 : Memref sig .tc .vmem S2048x1024 .f32) (h1 : a1.IsWhole)
    (a2 : Memref sig .tc .vmem S8x1024 .f32) (h2 : a2.IsWhole) (hc : ¬cond0_0 i) (x : Vec F S2048x1024 .f32) (xo : Vec F S8x1024 .f32) :
    out0_B_1 c i a1 h1 a2 h2 hc x xo = k0_pay2 x xo := by
  unfold out0_B_1
  rw [View.read_writes_eq_canon _ _ _ (cover0_B_1 c i a1 h1 a2 h2 hc x xo)]
  unfold kernelRun0_B
  dsimp only
  rw [View.canon_unit_zero zeroOffsets]
  simp only [View.readAt_eq_ld, h1.read_unread, h2.read_unread, View.ld_unit_zero (S := S8x1024) zeroOffsets, View.ld_unit_zero (S := S2048x1024) zeroOffsets]

/-- The first point of a run of eight: the block is first filled with `-∞`, read back, and the second store leaves `max`
    of that constant block with the column maxima of the input block `x`. -/
theorem firstPoint_stores (c : Dev nD) (i : grid0.Coords) (a1 : Memref sig .tc .vmem S2048x1024 .f32) (h1 : a1.IsWhole)
    (a2 : Memref sig .tc .vmem S8x1024 .f32) (h2 : a2.IsWhole) (hc : cond0_0 i) (x : Vec F S2048x1024 .f32) :
    out0_A_1 c i a1 h1 a2 h2 hc x = k0_pay2 x k0_pay1 := by
  unfold out0_A_1
  rw [View.read_writes_eq_canon _ _ _ (cover0_A_1 c i a1 h1 a2 h2 hc x)]
  unfold kernelRun0_A
  dsimp only
  sl_unfold_words
  rw [View.canon_cons_unit_zero (S := S8x1024) zeroOffsets, View.readCov_unit_zero (S := S8x1024) _ zeroOffsets]
  simp only [View.readAt_eq_ld, h1.read_unread, View.ld_unit_zero (S := S8x1024) zeroOffsets, View.ld_unit_zero (S := S2048x1024) zeroOffsets]

end Pieces

/-! ## The stored values at an entry, over the extended reals -/

section Payload

/-- The word of minus infinity is the bottom of the extended reals. -/
theorem ofBits_negInf : Ideal.ofBits .f32 0xFF800000#32 = (⊥ : EReal) := by
  simp [Ideal.ofBits, Ideal.ieee]

/-- The reset block is `⊥` everywhere. -/
theorem resetBlock_apply (j : S8x1024.Idx) : k0_pay1 (F := Ideal) j = (⊥ : EReal) := by
  show Ideal.ofBits .f32 0xFF800000#32 = (⊥ : EReal)
  exact ofBits_negInf

/-- Column `d` of the reduced vector comes from the entries `(y, d)` of the block, `y` running over its 2048 rows. -/
theorem reducedColumn_rows (d : Fin 1024) (y : Fin 2048) :
    reduces_S2048x1024_S1024.lift (ix1 d) y = ix2 y d := by
  funext a
  match a with
  | ⟨0, _⟩ => exact Fin.ext rfl
  | ⟨1, _⟩ => exact Fin.ext rfl

/-- The maximum-reduction of a `[2048, 1024]` block over its rows, at column `d`: the fold of `max` from `-∞` over the
    rows, which is the supremum of the column. -/
theorem blockMax_apply (v3 : FVec Ideal S2048x1024 .f32) (d : Fin 1024) (hφ : FKind.Formats .f32)
    (hacc : (0xFF800000#32 : BitVec (FTy.bits .f32)) = FKind.maximumf.neutral .f32 hφ) :
    multiReduction (F := Ideal) (φ := .f32) (s := S2048x1024) .maximumf [0] S1024 v3 0xFF800000#32 reduces_S2048x1024_S1024 hφ hacc (ix1 d)
      = Finset.univ.sup fun y : Fin 2048 => (v3 (ix2 y d) : EReal) := by
  refine (Ideal.multiReduction_maximumf_single (φ := .f32) (s := S2048x1024) v3 0xFF800000#32 reduces_S2048x1024_S1024 hφ hacc (ix1 d)).trans ?_
  show Finset.fold max (Ideal.ofBits .f32 0xFF800000#32) (fun y : Fin 2048 => v3 (reduces_S2048x1024_S1024.lift (ix1 d) y)) Finset.univ = _
  rw [ofBits_negInf]
  simp only [reducedColumn_rows]
  rfl

/-- The stored value at entry `(r, d)`: the larger of the carried entry and the supremum of column `d` of the input
    block — the same for every row `r` (the reduced row is repeated down the block). -/
theorem storedMax_apply (v3 : Vec Ideal S2048x1024 .f32) (v8 : Vec Ideal S8x1024 .f32) (r : Fin 8) (d : Fin 1024) :
    k0_pay2 (F := Ideal) v3 v8 (ix2 r d)
      = max (v8 (ix2 r d) : EReal) (Finset.univ.sup fun y : Fin 2048 => (v3 (ix2 y d) : EReal)) := by
  unfold k0_pay2
  dsimp only
  refine (maximumf_apply _ _ _).trans ?_
  refine congrArg₂ max ?_ ?_
  · exact congrFun (shapeCast_self v8 _) _
  · refine (broadcastTo_apply _ broadcasts_S1x1024_S8x1024 (ix2 r d) (ix2 (0 : Fin 1) d) (fun a => by
      match a with
      | ⟨0, _⟩ => rfl
      | ⟨1, _⟩ => rfl)).trans ?_
    refine (congrFun (shapeCast_self _ _) _).trans ?_
    refine (shapeCast_apply _ shapeCasts_S1024_S1x1024 (ix2 (0 : Fin 1) d) (ix1 d) (by
      rw [Shape.rowMajor_val_one, Shape.rowMajor_val_two]; simp)).trans ?_
    exact blockMax_apply v3 d _ _

end Payload

/-! ## The blocks' positions, and the input block read off `x` -/

section Run

/-- Where the two windows' blocks sit at point `t`: the input's block is block `t` of 16 along the rows, the output's is
    block `t / 8` of 2 (decided over the grid). -/
theorem blockPositions : ∀ t : Fin cfg0.N, win0_0.index t (0 : Fin 2) = t.val ∧ win0_0.index t (1 : Fin 2) = 0
    ∧ win0_1.index t (0 : Fin 2) = t.val / 8 ∧ win0_1.index t (1 : Fin 2) = 0 :=
  (by decide +kernel : ∀ t : Fin grid0.N, _)

variable (V : (c : Dev nD) → (b : Ref sig .tc) → Buf (Elt Ideal) ((c : Thread nD τ).loc b))

/-- The input block at point `t`, entry `(y, d)`, is `x` at row `2048 t + y`. -/
theorem inputBlock_apply (c : Dev nD) (t : Fin cfg0.N) (y : Fin 2048) (d : Fin 1024) (n : Fin 32768) (hn : n.val = 2048 * t.val + y.val) :
    iblk0 V c 0 t (ix2 y d) = V c main_arg0 (ix2 n d) := by
  unfold iblk0
  rw [View.read_apply]
  show V c main_arg0 (((cfg0.win 0).blk t).view.emb (ix2 y d)) = V c main_arg0 (ix2 n d)
  obtain ⟨e0, e1, -, -⟩ := blockPositions t
  refine congrArg (V c main_arg0) (funext fun a => Fin.ext ?_)
  match a with
  | ⟨0, _⟩ => show win0_0.index t (0 : Fin 2) * 2048 + 1 * y.val = n.val; rw [e0, hn]; omega
  | ⟨1, _⟩ => show win0_0.index t (1 : Fin 2) * 1024 + 1 * d.val = d.val; rw [e1]; omega

end Run

/-! ## The running maximum, point by point -/

section Invariant

/-- The first point of a half: the stored block is, in every row, the column maxima of that point's input block. -/
theorem firstPoint_value (X : S32768x1024.Idx → EReal) (x0 : Vec Ideal S2048x1024 .f32) (n : ℕ) (hn : n < 16) (h0 : n % 8 = 0)
    (hx : ∀ (y : Fin 2048) (d : Fin 1024) (m : Fin 32768), m.val = 2048 * n + y.val → x0 (ix2 y d) = X (ix2 m d))
    (r : Fin 8) (d : Fin 1024) :
    k0_pay2 (F := Ideal) x0 (k0_pay1 (F := Ideal)) (ix2 r d) = rowsSup X (16384 * (n / 8)) (2048 * (n + 1)) d := by
  rw [storedMax_apply, resetBlock_apply, max_eq_right bot_le,
    sup_fin_eq_rowsSup X 2048 (2048 * n) (by omega) _ d (fun y m hm => hx y d m hm)]
  rw [show 16384 * (n / 8) = 2048 * n by omega, show 2048 * n + 2048 = 2048 * (n + 1) by omega]

/-- A later point of a half: the stored block is the larger of what the point before left and the column maxima of
    this point's input block, so the range of rows grows by one block. -/
theorem laterPoint_value (X : S32768x1024.Idx → EReal) (x0 : Vec Ideal S2048x1024 .f32) (xo : Vec Ideal S8x1024 .f32) (n : ℕ)
    (hn : n + 1 < 16) (hB : ¬(n + 1) % 8 = 0)
    (hx : ∀ (y : Fin 2048) (d : Fin 1024) (m : Fin 32768), m.val = 2048 * (n + 1) + y.val → x0 (ix2 y d) = X (ix2 m d))
    (hxo : ∀ (r : Fin 8) (d : Fin 1024), xo (ix2 r d) = rowsSup X (16384 * (n / 8)) (2048 * (n + 1)) d)
    (r : Fin 8) (d : Fin 1024) :
    k0_pay2 (F := Ideal) x0 xo (ix2 r d) = rowsSup X (16384 * ((n + 1) / 8)) (2048 * (n + 1 + 1)) d := by
  rw [storedMax_apply, hxo r d, sup_fin_eq_rowsSup X 2048 (2048 * (n + 1)) (by omega) _ d (fun y m hm => hx y d m hm)]
  rw [show (n + 1) / 8 = n / 8 by omega, show 2048 * (n + 1) + 2048 = 2048 * (n + 1 + 1) by omega]
  exact (rowsSup_union X _ _ _ (by omega) (by omega) d).symm

variable (V : (c : Dev nD) → (b : Ref sig .tc) → Buf (Elt Ideal) ((c : Thread nD τ).loc b))

/-- At the first point of a run of eight the range is the point's own block (which starts its half). -/
theorem runningMax_first (c : Dev nD) (t : Fin cfg0.N) (h0 : t.val % 8 = 0) (r : Fin 8) (d : Fin 1024) :
    outsAt0 V c t.val t.isLt (ix2 r d) = rowsSup (V c main_arg0) (16384 * (t.val / 8)) (2048 * (t.val + 1)) d := by
  have hN : t.val < 16 := lt_of_lt_of_eq t.isLt (show cfg0.N = 16 from N_0)
  have e := (outsAt0_A V c t h0).trans
    (firstPoint_stores c (grid0.coords t) (ms0_0 t) (hs0_0 t) (ms0_1 t) (hs0_1 t) ((hcond0_0 t).mpr h0) (iblk0 V c 0 t))
  refine (congrFun e (ix2 r d)).trans ?_
  exact firstPoint_value (V c main_arg0) (iblk0 V c 0 t) t.val hN h0 (fun y d m hm => inputBlock_apply V c t y d m hm) r d

/-- At a later point of a run the range of the point before grows by this point's block. -/
theorem runningMax_next (c : Dev nD) (n : ℕ) (h : n + 1 < cfg0.N) (hB : ¬(n + 1) % 8 = 0)
    (ih : ∀ (r : Fin 8) (d : Fin 1024), outsAt0 V c n (Nat.lt_of_succ_lt h) (ix2 r d)
      = rowsSup (V c main_arg0) (16384 * (n / 8)) (2048 * (n + 1)) d)
    (r : Fin 8) (d : Fin 1024) :
    outsAt0 V c (n + 1) h (ix2 r d) = rowsSup (V c main_arg0) (16384 * ((n + 1) / 8)) (2048 * (n + 1 + 1)) d := by
  have hN : n + 1 < 16 := lt_of_lt_of_eq h (show cfg0.N = 16 from N_0)
  have e := (outsAt0_B V c ⟨n + 1, h⟩ hB).trans
    (laterPoint_stores c (grid0.coords ⟨n + 1, h⟩) (ms0_0 ⟨n + 1, h⟩) (hs0_0 ⟨n + 1, h⟩) (ms0_1 ⟨n + 1, h⟩) (hs0_1 ⟨n + 1, h⟩)
      (fun hh => hB ((hcond0_0 ⟨n + 1, h⟩).mp hh)) (iblk0 V c 0 ⟨n + 1, h⟩) (outsAt0 V c n (Nat.lt_of_succ_lt h)))
  refine (congrFun e (ix2 r d)).trans ?_
  exact laterPoint_value (V c main_arg0) (iblk0 V c 0 ⟨n + 1, h⟩) (outsAt0 V c n (Nat.lt_of_succ_lt h)) n hN hB
    (fun y d m hm => inputBlock_apply V c ⟨n + 1, h⟩ y d m hm) ih r d

/-- THE RUNNING MAXIMUM. After point `n` the output block holds, in each of its eight rows, the column maxima of `x` over
    the rows from the start of the point's half (`16384 (n / 8)`) to the end of the point's input block (`2048 (n + 1)`). -/
theorem runningMax_apply (c : Dev nD) : ∀ (n : ℕ) (h : n < cfg0.N) (r : Fin 8) (d : Fin 1024),
    outsAt0 V c n h (ix2 r d) = rowsSup (V c main_arg0) (16384 * (n / 8)) (2048 * (n + 1)) d := by
  intro n
  induction n with
  | zero => intro h r d; exact runningMax_first V c ⟨0, h⟩ rfl r d
  | succ n ih =>
    intro h r d
    by_cases h0 : (n + 1) % 8 = 0
    · exact runningMax_first V c ⟨n + 1, h⟩ h0 r d
    · exact runningMax_next V c n h h0 (fun r d => ih (Nat.lt_of_succ_lt h) r d) r d

/-- The same at any index of the block, from its column coordinate. -/
theorem runningMax_at (c : Dev nD) (n : ℕ) (h : n < cfg0.N) (j : S8x1024.Idx) (d : Fin 1024) (hd : (j 1).val = d.val) :
    outsAt0 V c n h j = rowsSup (V c main_arg0) (16384 * (n / 8)) (2048 * (n + 1)) d := by
  obtain ⟨r, d', rfl⟩ : ∃ (r : Fin 8) (d' : Fin 1024), j = ix2 r d' := ⟨j 0, j 1, eq_ix2 j⟩
  obtain rfl : d' = d := Fin.ext hd
  exact runningMax_apply V c n h r d'

end Invariant

/-! ## The result array -/

section Final

variable (V : (c : Dev nD) → (b : Ref sig .tc) → Buf (Elt Ideal) ((c : Thread nD τ).loc b))

/-- Membership in the output window's block at point `t`, per axis. -/
theorem mem_outputBlock_iff (t : Fin cfg0.N) (i : S16x1024.Idx) :
    i ∈ ((cfg0.win 1).blk t).view.set ↔ ∀ a : Fin 2, win0_1.index t a * S8x1024.size a ≤ (i a).val ∧ (i a).val < win0_1.index t a * S8x1024.size a + S8x1024.size a := by
  show i ∈ ((View.whole main_v0).slice (win0_1.rect t)).set ↔ _
  rw [View.set_slice_whole, Rect.mem_set_unit]
  exact Iff.rfl

/-- A point that writes back (`t ≡ 7 mod 8`) writes block `t / 8` of the slab: by then the running range is the whole half. -/
theorem writeBack_eq_slabBlock (c : Dev nD) (t : Fin cfg0.N) (hf : (cfg0.win 1).flush t = true) :
    (dat0 V c).flushed 1 t = ((cfg0.win 1).blk t).view.read (Elt Ideal) (slab (V c main_arg0)) := by
  have hN : t.val < 16 := lt_of_lt_of_eq t.isLt (show cfg0.N = 16 from N_0)
  have h7 : t.val % 8 = 7 := (flush0_1 t).mp hf
  obtain ⟨-, -, e0, e1⟩ := blockPositions t
  show (cfg0.win 1).cut (grid0.coords t) ((dat0 V c).after 1 t) = _
  rw [after0_1]
  refine funext fun (y : S8x1024.Idx) => ?_
  have hy0 : (y 0).val < 8 := (y 0).isLt
  have hy1 : (y 1).val < 1024 := (y 1).isLt
  rw [View.read_apply]
  show outsAt0 V c t.val t.isLt ((cfg0.win 1).xinj (grid0.coords t) y) = slab (V c main_arg0) (((cfg0.win 1).blk t).view.emb y)
  rw [runningMax_at V c t.val t.isLt ((cfg0.win 1).xinj (grid0.coords t) y) ⟨(y 1).val, hy1⟩ rfl,
    slab_apply (V c main_arg0) (((cfg0.win 1).blk t).view.emb y) (t.val / 8) ⟨(y 1).val, hy1⟩
      (by show (win0_1.index t (0 : Fin 2) * 8 + 1 * (y 0).val) / 8 = t.val / 8; rw [e0]; omega)
      (by show win0_1.index t (1 : Fin 2) * 1024 + 1 * (y 1).val = (y 1).val; rw [e1]; omega)]
  rw [show 2048 * (t.val + 1) = 16384 * (t.val / 8) + 16384 by omega]

/-- REGION 0's VALUE: the result array ends holding the slab of half-maxima of `x` — each of the two write-backs
    (after points 7 and 15) writes eight equal rows holding the column maxima of its half. -/
theorem slab_final (c : Dev nD) : (dat0 (F := Ideal) V c).arrAt 1 cfg0.N = slab (V c main_arg0) :=
  (dat0 V c).arrAt_eq_of_cover 1 (slab (V c main_arg0)) (writeBack_eq_slabBlock V c) fun i => by
    have h16 : (i 0).val < 16 := (i 0).isLt
    have h1024 : (i 1).val < 1024 := (i 1).isLt
    have ht : 8 * ((i 0).val / 8) + 7 < cfg0.N := by rw [show cfg0.N = 16 from N_0]; omega
    obtain ⟨-, -, e0, e1⟩ := blockPositions ⟨8 * ((i 0).val / 8) + 7, ht⟩
    refine ⟨⟨8 * ((i 0).val / 8) + 7, ht⟩, (flush0_1 _).mpr (by show (8 * ((i 0).val / 8) + 7) % 8 = 7; omega), ?_⟩
    rw [mem_outputBlock_iff]
    intro a
    match a with
    | ⟨0, _⟩ =>
      show win0_1.index ⟨8 * ((i 0).val / 8) + 7, ht⟩ (0 : Fin 2) * 8 ≤ (i 0).val
        ∧ (i 0).val < win0_1.index ⟨8 * ((i 0).val / 8) + 7, ht⟩ (0 : Fin 2) * 8 + 8
      rw [e0]
      show (8 * ((i 0).val / 8) + 7) / 8 * 8 ≤ (i 0).val ∧ (i 0).val < (8 * ((i 0).val / 8) + 7) / 8 * 8 + 8
      omega
    | ⟨1, _⟩ =>
      show win0_1.index ⟨8 * ((i 0).val / 8) + 7, ht⟩ (1 : Fin 2) * 1024 ≤ (i 1).val
        ∧ (i 1).val < win0_1.index ⟨8 * ((i 0).val / 8) + 7, ht⟩ (1 : Fin 2) * 1024 + 1024
      rw [e1]
      omega

end Final

end Cert.KernelIdeal.Slab

end
-- ==== Proof.KernelValue.lean ====
/-
  The kernel program's result is the product spelling of the launch arrays.

  The second region writes, block by block, `s o * (∑ d, (x n d * r d) * w' o d) + b' o` of the five arrays it is
  entered with. Those are: the activations (no host operation writes them), the weight after a change of float format
  (the weight), and three `[1, 1024]` rows the host computes — the scale `s`, its reciprocal `r = 1 / s`, the bias.
  The host's scale is the quotient of the square roots of two column maxima: the weight's, and the maximum over the
  sixteen rows of the slab the first region leaves, which is the column maximum of the activations themselves (each
  half of the slab holds the column maxima of one half of the rows). So the result array is the product spelling
  `prodEntry` at the scale `scale x w` of the launch arrays.
-/
import proofs.«147346_j15522011807856_2_alg».proof.Proof.KernelRun
import proofs.«147346_j15522011807856_2_alg».proof.Proof.HostStretch
import proofs.«147346_j15522011807856_2_alg».proof.Proof.FusedBlocks
import proofs.«147346_j15522011807856_2_alg».proof.Proof.ColMaxSlab
import proofs.«147346_j15522011807856_2_alg».proof.Proof.Spec

noncomputable section

namespace Cert.KernelIdeal.KernelValue

open Cert.KernelIdeal Cert.KernelIdeal.Gen Cert.Smooth
open Idealize.ShloMosaic Idealize.ShloMosaic.TcCoe Idealize.ShloMosaic.StableHlo Idealize.ShloMosaic.ValueIdx Idealize.SL.Sem
open Idealize.ShloMosaic.Pipeline (Dat)

/-- The second region's whole-array function is the product spelling, once its five operands are known entry by entry. -/
theorem fusedOut_eq_prod (xv : S32768x1024.Idx → EReal) (wb : S1024x1024.Idx → EReal) (is s bb : S1x1024.Idx → EReal)
    (x : S32768x1024.Idx → EReal) (w : S1024x1024.Idx → EReal) (b : S1024.Idx → EReal) (sc : Fin 1024 → EReal)
    (hx : ∀ i, xv i = x i) (hs : ∀ o : Fin 1024, s (ix2 (0 : Fin 1) o) = sc o)
    (his : ∀ d : Fin 1024, is (ix2 (0 : Fin 1) d) = Ideal.div one (sc d)) (hw : ∀ i, wb i = w i)
    (hb : ∀ o : Fin 1024, bb (ix2 (0 : Fin 1) o) = b (ix1 o)) :
    Fused.fusedOut xv wb is s bb = fun j => prodEntry sc x w b (j 0) (j 1) := by
  funext j
  obtain ⟨n, o, rfl⟩ : ∃ (n : Fin 32768) (o : Fin 1024), j = ix2 n o := ⟨j 0, j 1, eq_ix2 j⟩
  show s (ix2 (0 : Fin 1) o) * (∑ d : Fin 1024, (xv (ix2 n d) * is (ix2 (0 : Fin 1) d)) * wb (ix2 o d)) + bb (ix2 (0 : Fin 1) o)
    = sc o * (∑ d : Fin 1024, (x (ix2 n d) * Ideal.div one (sc d)) * w (ix2 o d)) + b (ix1 o)
  rw [hs, hb]
  congr 2
  exact Finset.sum_congr rfl fun d _ => by rw [hx, his, hw]

variable (m : (ℓ : Loc nD τ sig) → Buf (Elt Ideal) ℓ) (ρ : Dev nD → PrngReg)

/-- Between the regions the slab holds what the first region's write-backs leave: the halves' column maxima. -/
theorem W1_slab (c : Dev nD) : W1 m ρ c (Proc.devRef .tc main_v0) = Slab.slab (m ((c : Thread nD τ).loc main_arg0)) :=
  (W1_arr m ρ c 1).trans (Slab.slab_final (V0 m ρ) c)

/-- The first region writes neither the weight nor the bias. -/
theorem W1_w (c : Dev nD) : W1 m ρ c (Proc.devRef .tc main_arg1) = m ((c : Thread nD τ).loc main_arg1) :=
  W1_of_ne m ρ c main_arg1 (by decide)
theorem W1_b (c : Dev nD) : W1 m ρ c (Proc.devRef .tc main_arg2) = m ((c : Thread nD τ).loc main_arg2) :=
  W1_of_ne m ρ c main_arg2 (by decide)
/-- The second region is entered with the activations as launched. -/
theorem W2_x (c : Dev nD) : W2 m ρ c (Proc.devRef .tc main_arg0) = m ((c : Thread nD τ).loc main_arg0) :=
  ((W3_arr m ρ c 0).trans (((dat1 (V2 m ρ) c).arrAt_in 0 rfl _).trans (A_eq1 (V2 m ρ) c 0))).symm.trans (W3_main_arg0 m ρ c)

/-- The host's scale at channel `o` is the scale of the launch arrays: the slab's column maximum is the activations'. -/
theorem scale_at (c : Dev nD) (o : Fin 1024) :
    HostStretch.hostScale (W1 m ρ c (Proc.devRef .tc main_v0)) (W1 m ρ c (Proc.devRef .tc main_arg1)) (ix1 o)
      = scale (m ((c : Thread nD τ).loc main_arg0)) (m ((c : Thread nD τ).loc main_arg1)) o := by
  rw [HostStretch.hostScale_apply, W1_slab m ρ c, W1_w m ρ c, Slab.colMax_slab]
  rfl

/-- The result array at the program's last boundary: the product spelling of the launch arrays. -/
theorem result_eq (c : Dev nD) :
    W3 m ρ c (Proc.devRef .tc main_v14) = fun j =>
      prodEntry (scale (m ((c : Thread nD τ).loc main_arg0)) (m ((c : Thread nD τ).loc main_arg1)))
        (m ((c : Thread nD τ).loc main_arg0)) (m ((c : Thread nD τ).loc main_arg1)) (m ((c : Thread nD τ).loc main_arg2)) (j 0) (j 1) :=
  (W3_arr m ρ c 5).trans ((Fused.fused_final (V2 m ρ) c).trans
    (fusedOut_eq_prod _ _ _ _ _ _ _ _ _
      (fun i => congrFun (W2_x m ρ c) i)
      (fun o => (HostStretch.after_scale (W1 m ρ c) o).trans (scale_at m ρ c o))
      (fun d => (HostStretch.after_recip (W1 m ρ c) d).trans (congrArg (Ideal.div one) (scale_at m ρ c d)))
      (fun i => (HostStretch.after_weight (W1 m ρ c) i).trans (congrFun (W1_w m ρ c) i))
      (fun o => (HostStretch.after_bias (W1 m ρ c) o).trans (congrFun (W1_b m ρ c) (ix1 o)))))

/-- The run, read: the result array at the product spelling of the launch arrays, the arguments as launched. -/
theorem run : θ_run defs (onTc (τ := τ) (main (F := Ideal))) ⟨m, fun _ => 0, ρ⟩ (fun r => ∀ c : Dev nD,
      r.2.mem ((c.tc : Thread nD τ).loc main_v14) = (fun j =>
        prodEntry (scale (m ((c.tc : Thread nD τ).loc main_arg0)) (m ((c.tc : Thread nD τ).loc main_arg1)))
          (m ((c.tc : Thread nD τ).loc main_arg0)) (m ((c.tc : Thread nD τ).loc main_arg1)) (m ((c.tc : Thread nD τ).loc main_arg2)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩) (RunValue.run_result m ρ)

end Cert.KernelIdeal.KernelValue

end
-- ==== Proof.lean ====
/-
  A smoothing rescale of a linear layer: the kernel program against its reference, over the extended reals.

  Both programs form, per input channel `d`, the scale `s d = (max_n x n d)^(1/2) / (max_o w o d)^(1/2)` from the column
  maxima of the activations `x : [32768, 1024]` and of the square weight `w : [1024, 1024]`. The reference divides the
  activations by the scale, multiplies the weight's rows by it and contracts: `(∑ d, (x n d / s d) * (s o * w o d)) + b o`.
  The kernel program finds the activations' column maxima in a first region (each of two halves of the rows reduced
  block by block into eight equal rows of a slab, the host taking the maximum of the slab's rows), forms `s` and `1 / s` on
  the host, and in a second region contracts the activations times `1 / s` with the weight and rescales after the
  contraction: `s o * (∑ d, (x n d * (1 / s d)) * w o d) + b o`.

  The two spellings are equal when every `s d` is a positive real and every input entry is real: then both are the
  same real expression, by distributing `s o` over the sum. The precondition gives exactly that: every input entry
  finite, and every column maximum of `x` and of `w` positive — outside that domain the reference itself leaves the
  reals (a negative maximum under the power one half, a division by a zero scale or by a zero maximum), and over the
  extended reals its junk values and the kernel's differ. Moving `s o` across the sum needs finiteness; the column
  maximum, a supremum, needs none.

  The three frames: both kernel programs' are the generated frames; the reference's is its run with the result dropped.
  The kernel program's idealization rewrote nothing.
-/
import proofs.«147346_j15522011807856_2_alg».proof.Defs
import proofs.«147346_j15522011807856_2_alg».proof.Proof.Gen.Kernel
import proofs.«147346_j15522011807856_2_alg».proof.Proof.Gen.Kernel.Skeleton
import proofs.«147346_j15522011807856_2_alg».proof.Proof.Gen.Kernel.Launch
import proofs.«147346_j15522011807856_2_alg».proof.Proof.Gen.Kernel.Points
import proofs.«147346_j15522011807856_2_alg».proof.Proof.Gen.Kernel.Frame
import proofs.«147346_j15522011807856_2_alg».proof.Proof.Gen.KernelIdeal
import proofs.«147346_j15522011807856_2_alg».proof.Proof.Gen.KernelIdeal.Skeleton
import proofs.«147346_j15522011807856_2_alg».proof.Proof.Gen.KernelIdeal.Launch
import proofs.«147346_j15522011807856_2_alg».proof.Proof.Gen.KernelIdeal.Points
import proofs.«147346_j15522011807856_2_alg».proof.Proof.Gen.KernelIdeal.Frame
import proofs.«147346_j15522011807856_2_alg».proof.Proof.Gen.ReferenceIdeal
import proofs.«147346_j15522011807856_2_alg».proof.Proof.Gen.ReferenceIdeal.Run
import proofs.«147346_j15522011807856_2_alg».proof.Proof.Gen.ReferenceIdeal.Read
import proofs.«147346_j15522011807856_2_alg».proof.Proof.Gen.Pre_finite_inputs
import proofs.«147346_j15522011807856_2_alg».proof.Proof.Spec
import proofs.«147346_j15522011807856_2_alg».proof.Proof.Law
import proofs.«147346_j15522011807856_2_alg».proof.Proof.PreDecode
import proofs.«147346_j15522011807856_2_alg».proof.Proof.RefRead
import proofs.«147346_j15522011807856_2_alg».proof.Proof.KernelValue
import Idealize.ShloMosaic.Adequacy
import Idealize.ShloMosaic.Init

noncomputable section

namespace Cert.Proof

open Idealize.ShloMosaic Idealize.ShloMosaic.TcCoe Idealize.SL.Sem Cert.Smooth

attribute [local instance] Cert.Kernel.Gen.facts Cert.KernelIdeal.Gen.facts Cert.ReferenceIdeal.Gen.facts Cert.Pre_finite_inputs.Gen.facts

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The kernel program ends at the product spelling of its arguments, the reference at the quotient spelling of
    arguments that agree; under the precondition every entry is real and every scale a positive real, where the two
    spellings are one real expression. -/
theorem algebraic : Cert.algebraic_KernelIdeal_ReferenceIdeal := by
  intro m ρ m' ρ' hpre hagree
  refine ⟨_, Cert.KernelIdeal.KernelValue.run m ρ, ?_⟩
  refine (θ_run Cert.ReferenceIdeal.defs _ _).mono (fun r h c => ⟨?_, (h c).2⟩)
    (Cert.ReferenceIdeal.Value.run (F := Ideal) m' ρ')
  obtain ⟨hx, hw, hb, hpx, hpw⟩ := Cert.Smooth.pre_decode _ _ _ (hpre c)
  rw [(h c).1, Cert.ReferenceIdeal.Read.val_main_v17_eq, Cert.ReferenceIdeal.RefValue.ref_value,
    (hagree c).1, (hagree c).2.1, (hagree c).2.2]
  funext j
  exact (Cert.Smooth.entry_eq _ _ _ hx hw hb hpx hpw (j 0) (j 1)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
